-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x32 : Shape := ⟨2, ![200000, 32]⟩
abbrev S27x32x32 : Shape := ⟨3, ![27, 32, 32]⟩
abbrev S32 : Shape := ⟨1, ![32]⟩
abbrev S27x100000 : Shape := ⟨2, ![27, 100000]⟩
abbrev S_ : Shape := ⟨0, ![]⟩

class Facts : Prop where
  bcast_S_S200000x32 : S_.BroadcastsInDim S200000x32 (![] : Fin 0 → Fin S200000x32.rank)
  reducesTo_S200000x32_S_d0_1 : S200000x32.ReducesTo [0, 1] S_
  h_S_ : 0 < S_.numel
  bcast_S_S27x32x32 : S_.BroadcastsInDim S27x32x32 (![] : Fin 0 → Fin S27x32x32.rank)
  reducesTo_S27x32x32_S_d0_1_2 : S27x32x32.ReducesTo [0, 1, 2] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S200000x32 .f32) (main_arg1 : FVec F S27x32x32 .f32) (main_arg2 : FVec F S32 .f32) (main_arg3 : FVec F S32 .f32) (main_arg4 : IVec S27x100000 32) (main_arg5 : IVec S27x100000 32) : IVec S_ 1 :=
  let main_v0 : FVec F S200000x32 .f32 := Host.absf main_arg0
  let main_cst : FVec F S_ .f32 := constant S_ .f32 0x7F800000#32
  let main_v1 : FVec F S200000x32 .f32 := broadcastInDim S200000x32 ![] bcast_S_S200000x32 main_cst
  let main_v2 : IVec S200000x32 1 := cmpf .olt main_v0 main_v1
  let main_c : IVec S_ 1 := constantI S_ 1 1#1
  let main_v3 : IVec S_ 1 := (fun x v => Host.reduce IntOp.andi x v reducesTo_S200000x32_S_d0_1 h_S_) main_v2 main_c
  let main_v4 : FVec F S27x32x32 .f32 := Host.absf main_arg1
  let main_cst_0 : FVec F S_ .f32 := constant S_ .f32 0x7F800000#32
  let main_v5 : FVec F S27x32x32 .f32 := broadcastInDim S27x32x32 ![] bcast_S_S27x32x32 main_cst_0
  let main_v6 : IVec S27x32x32 1 := cmpf .olt main_v4 main_v5
  let main_c_1 : IVec S_ 1 := constantI S_ 1 1#1
  let main_v7 : IVec S_ 1 := (fun x v => Host.reduce IntOp.andi x v reducesTo_S27x32x32_S_d0_1_2 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S200000x32 : Shape := ⟨2, ![200000, 32]⟩
abbrev S27x32x32 : Shape := ⟨3, ![27, 32, 32]⟩
abbrev S32 : Shape := ⟨1, ![32]⟩
abbrev S27x100000 : Shape := ⟨2, ![27, 100000]⟩
abbrev S_ : Shape := ⟨0, ![]⟩
abbrev S27x100000x1 : Shape := ⟨3, ![27, 100000, 1]⟩
abbrev S27x100000x32 : Shape := ⟨3, ![27, 100000, 32]⟩
abbrev S1x25000x32 : Shape := ⟨3, ![1, 25000, 32]⟩
abbrev S1x32x32 : Shape := ⟨3, ![1, 32, 32]⟩
abbrev S25000x32 : Shape := ⟨2, ![25000, 32]⟩
abbrev S32x32 : Shape := ⟨2, ![32, 32]⟩
abbrev S2700000x32 : Shape := ⟨2, ![2700000, 32]⟩
abbrev S2700000 : Shape := ⟨1, ![2700000]⟩
abbrev S2700000x1 : Shape := ⟨2, ![2700000, 1]⟩
abbrev S1x32 : Shape := ⟨2, ![1, 32]⟩

abbrev nBuf : Space → Nat
  | .hbm => 49
  | .vmem => 16
  | .smem => 0
  | _ => 0

abbrev bufTy : (tb : Table) → Fin (tcTables nBuf tb) → BufTy
  | .hbm, ⟨0, _⟩ => ⟨S200000x32, .f32⟩
  | .hbm, ⟨1, _⟩ => ⟨S27x32x32, .f32⟩
  | .hbm, ⟨2, _⟩ => ⟨S32, .f32⟩
  | .hbm, ⟨3, _⟩ => ⟨S32, .f32⟩
  | .hbm, ⟨4, _⟩ => ⟨S27x100000, .i32⟩
  | .hbm, ⟨5, _⟩ => ⟨S27x100000, .i32⟩
  | .hbm, ⟨6, _⟩ => ⟨S_, .i32⟩
  | .hbm, ⟨7, _⟩ => ⟨S27x100000, .i32⟩
  | .hbm, ⟨8, _⟩ => ⟨S27x100000, .i1⟩
  | .hbm, ⟨9, _⟩ => ⟨S_, .i32⟩
  | .hbm, ⟨10, _⟩ => ⟨S27x100000, .i32⟩
  | .hbm, ⟨11, _⟩ => ⟨S27x100000, .i32⟩
  | .hbm, ⟨12, _⟩ => ⟨S27x100000, .i32⟩
  | .hbm, ⟨13, _⟩ => ⟨S27x100000x1, .i32⟩
  | .hbm, ⟨14, _⟩ => ⟨S27x100000x32, .f32⟩
  | .hbm, ⟨15, _⟩ => ⟨S27x100000x32, .f32⟩
  | .hbm, ⟨16, _⟩ => ⟨S2700000x32, .f32⟩
  | .hbm, ⟨17, _⟩ => ⟨S2700000, .i32⟩
  | .hbm, ⟨18, _⟩ => ⟨S_, .f32⟩
  | .hbm, ⟨19, _⟩ => ⟨S200000x32, .f32⟩
  | .hbm, ⟨20, _⟩ => ⟨S_, .i32⟩
  | .hbm, ⟨21, _⟩ => ⟨S2700000, .i32⟩
  | .hbm, ⟨22, _⟩ => ⟨S2700000, .i1⟩
  | .hbm, ⟨23, _⟩ => ⟨S_, .i32⟩
  | .hbm, ⟨24, _⟩ => ⟨S2700000, .i32⟩
  | .hbm, ⟨25, _⟩ => ⟨S2700000, .i32⟩
  | .hbm, ⟨26, _⟩ => ⟨S2700000, .i32⟩
  | .hbm, ⟨27, _⟩ => ⟨S2700000x1, .i32⟩
  | .hbm, ⟨28, _⟩ => ⟨S200000x32, .f32⟩
  | .hbm, ⟨29, _⟩ => ⟨S1x32, .f32⟩
  | .hbm, ⟨30, _⟩ => ⟨S1x32, .f32⟩
  | .hbm, ⟨31, _⟩ => ⟨S_, .f32⟩
  | .hbm, ⟨32, _⟩ => ⟨S1x32, .f32⟩
  | .hbm, ⟨33, _⟩ => ⟨S1x32, .f32⟩
  | .hbm, ⟨34, _⟩ => ⟨S_, .f32⟩
  | .hbm, ⟨35, _⟩ => ⟨S1x32, .f32⟩
  | .hbm, ⟨36, _⟩ => ⟨S1x32, .f32⟩
  | .hbm, ⟨37, _⟩ => ⟨S1x32, .f32⟩
  | .hbm, ⟨38, _⟩ => ⟨S1x32, .f32⟩
  | .hbm, ⟨39, _⟩ => ⟨S1x32, .f32⟩
  | .hbm, ⟨40, _⟩ => ⟨S_, .f32⟩
  | .hbm, ⟨41, _⟩ => ⟨S1x32, .f32⟩
  | .hbm, ⟨42, _⟩ => ⟨S1x32, .f32⟩
  | .hbm, ⟨43, _⟩ => ⟨S1x32, .f32⟩
  | .hbm, ⟨44, _⟩ => ⟨S1x32, .f32⟩
  | .hbm, ⟨45, _⟩ => ⟨S1x32, .f32⟩
  | .hbm, ⟨46, _⟩ => ⟨S1x32, .f32⟩
  | .hbm, ⟨47, _⟩ => ⟨S1x32, .f32⟩
  | .hbm, ⟨48, _⟩ => ⟨S200000x32, .f32⟩
  | .local _ .vmem, ⟨0, _⟩ => ⟨S1x25000x32, .f32⟩
  | .local _ .vmem, ⟨1, _⟩ => ⟨S1x25000x32, .f32⟩
  | .local _ .vmem, ⟨2, _⟩ => ⟨S1x32x32, .f32⟩
  | .local _ .vmem, ⟨3, _⟩ => ⟨S1x32x32, .f32⟩
  | .local _ .vmem, ⟨4, _⟩ => ⟨S1x25000x32, .f32⟩
  | .local _ .vmem, ⟨5, _⟩ => ⟨S1x25000x32, .f32⟩
  | .local _ .vmem, ⟨6, _⟩ => ⟨S25000x32, .f32⟩
  | .local _ .vmem, ⟨7, _⟩ => ⟨S25000x32, .f32⟩
  | .local _ .vmem, ⟨8, _⟩ => ⟨S1x32, .f32⟩
  | .local _ .vmem, ⟨9, _⟩ => ⟨S1x32, .f32⟩
  | .local _ .vmem, ⟨10, _⟩ => ⟨S25000x32, .f32⟩
  | .local _ .vmem, ⟨11, _⟩ => ⟨S25000x32, .f32⟩
  | .local _ .vmem, ⟨12, _⟩ => ⟨S1x32, .f32⟩
  | .local _ .vmem, ⟨13, _⟩ => ⟨S1x32, .f32⟩
  | .local _ .vmem, ⟨14, _⟩ => ⟨S25000x32, .f32⟩
  | .local _ .vmem, ⟨15, _⟩ => ⟨S25000x32, .f32⟩
  | _, _ => ⟨S200000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨2, ![27, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x25000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x25000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S25000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S25000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S25000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S27x100000 : S_.BroadcastsInDim S27x100000 (![] : Fin 0 → Fin S27x100000.rank)
  bcast_S27x100000_S27x100000x1_0_1 : S27x100000.BroadcastsInDim S27x100000x1 (![0, 1] : Fin 2 → Fin S27x100000x1.rank)
  inb_S1x25000x32_S1x25000x32_0_0_0 : ∀ a, (![0, 0, 0] : Fin 3 → Nat) a + S1x25000x32.size a ≤ S1x25000x32.size a
  h_S1x25000x32 : 0 < S1x25000x32.numel
  shapeCasts_S1x25000x32_S25000x32 : S1x25000x32.ShapeCasts S25000x32
  bitsLt_bf16_f32 : FTy.bits .bf16 < FTy.bits .f32
  inb_S1x32x32_S1x32x32_0_0_0 : ∀ a, (![0, 0, 0] : Fin 3 → Nat) a + S1x32x32.size a ≤ S1x32x32.size a
  h_S1x32x32 : 0 < S1x32x32.numel
  shapeCasts_S1x32x32_S32x32 : S1x32x32.ShapeCasts S32x32
  shapeCasts_S25000x32_S1x25000x32 : S25000x32.ShapeCasts S1x25000x32
  shapeCasts_S27x100000x32_S2700000x32 : S27x100000x32.ShapeCasts S2700000x32
  shapeCasts_S27x100000_S2700000 : S27x100000.ShapeCasts S2700000
  bcast_S_S200000x32 : S_.BroadcastsInDim S200000x32 (![] : Fin 0 → Fin S200000x32.rank)
  bcast_S_S2700000 : S_.BroadcastsInDim S2700000 (![] : Fin 0 → Fin S2700000.rank)
  bcast_S2700000_S2700000x1_0 : S2700000.BroadcastsInDim S2700000x1 (![0] : Fin 1 → Fin S2700000x1.rank)
  inb_S1x32_S1x32_0_0 : ∀ a, (![0, 0] : Fin 2 → Nat) a + S1x32.size a ≤ S1x32.size a
  h_S1x32 : 0 < S1x32.numel
  inb_S25000x32_S25000x32_0_0 : ∀ a, (![0, 0] : Fin 2 → Nat) a + S25000x32.size a ≤ S25000x32.size a
  h_S25000x32 : 0 < S25000x32.numel
  shapeCasts_S25000x32_S25000x32 : S25000x32.ShapeCasts S25000x32
  shapeCasts_S1x32_S1x32 : S1x32.ShapeCasts S1x32
  reduces_S25000x32_S32 : S25000x32.Reduces [0] S32
  shapeCasts_S32_S1x32 : S32.ShapeCasts S1x32
  bcast_S_S1x32 : S_.BroadcastsInDim S1x32 (![] : Fin 0 → Fin S1x32.rank)
  broadcasts_S1x32_S25000x32 : S1x32.Broadcasts S25000x32
  gather_S200000x32_S27x100000x1_S27x100000x32_2_0_n_n_0_2_132_wf : GatherDims.WF S200000x32 S27x100000x1 S27x100000x32 [2] [0] [] [0] [] 2 ![1, 32]
  dot_S25000x32_S32x32_S25000x32_1_0_0_1_n_n_wf : DotDims.WF S25000x32 S32x32 S25000x32 [1] [0] [0] [1] [] []
  scatter_S200000x32_S2700000x1_S2700000x32_1_0_0_1_wf : ScatterDims.WF S200000x32 S2700000x1 S2700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x25000x32.size a ≤ S27x100000x32.size a
  hwx0_0 : ∀ i : grid0.Coords, EltTy.bits .f32 = 32 ∨ (Rect.block (s := S27x100000x32) S1x25000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x32.size a ≤ S27x32x32.size a
  hwx0_1 : ∀ i : grid0.Coords, EltTy.bits .f32 = 32 ∨ (Rect.block (s := S27x32x32) S1x32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x25000x32.size a ≤ S27x100000x32.size a
  hwx0_2 : ∀ i : grid0.Coords, EltTy.bits .f32 = 32 ∨ (Rect.block (s := S27x100000x32) S1x25000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S25000x32.size a ≤ S200000x32.size a
  hwx1_0 : ∀ i : grid1.Coords, EltTy.bits .f32 = 32 ∨ (Rect.block (s := S200000x32) S25000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S25000x32.size a ≤ S200000x32.size a
  hwx2_0 : ∀ i : grid2.Coords, EltTy.bits .f32 = 32 ∨ (Rect.block (s := S200000x32) S25000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S25000x32.size a ≤ S200000x32.size a
  hwx2_3 : ∀ i : grid2.Coords, EltTy.bits .f32 = 32 ∨ (Rect.block (s := S200000x32) S25000x32.size (cc2_transform_3 i) (hinb2_3 i)).WholeWords (EltTy.packing .f32)

variable [Facts₀]

def gather_S200000x32_S27x100000x1_S27x100000x32_2_0_n_n_0_2_132 : GatherDims S200000x32 S27x100000x1 S27x100000x32 where
  offsetDims := [2]
  collapsedSliceDims := [0]
  operandBatchingDims := []
  startIndicesBatchingDims := []
  startIndexMap := [0]
  indexVectorDim := 2
  sliceSizes := ![1, 32]
  wf := gather_S200000x32_S27x100000x1_S27x100000x32_2_0_n_n_0_2_132_wf
def dot_S25000x32_S32x32_S25000x32_1_0_0_1_n_n : DotDims S25000x32 S32x32 S25000x32 where
  lhsContracting := [1]
  rhsContracting := [0]
  lhsNonContracting := [0]
  rhsNonContracting := [1]
  lhsBatch := []
  rhsBatch := []
  wf := dot_S25000x32_S32x32_S25000x32_1_0_0_1_n_n_wf
def scatter_S200000x32_S2700000x1_S2700000x32_1_0_0_1 : ScatterDims S200000x32 S2700000x1 S2700000x32 where
  updateWindowDims := [1]
  insertedWindowDims := [0]
  scatterDimsToOperandDims := [0]
  indexVectorDim := 1
  wf := scatter_S200000x32_S2700000x1_S2700000x32_1_0_0_1_wf

abbrev win0_0 : Pipeline.Window sig grid0 :=
  Pipeline.Window.ofSpec (Memref.whole main_v6) S1x25000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x25000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S25000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18_0) S1x32.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18_1) S1x32.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v17) S25000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S25000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S200000x32 : Shape := ⟨2, ![200000, 32]⟩
abbrev S27x32x32 : Shape := ⟨3, ![27, 32, 32]⟩
abbrev S32 : Shape := ⟨1, ![32]⟩
abbrev S27x100000 : Shape := ⟨2, ![27, 100000]⟩
abbrev S_ : Shape := ⟨0, ![]⟩
abbrev S27x100000x1 : Shape := ⟨3, ![27, 100000, 1]⟩
abbrev S27x100000x32 : Shape := ⟨3, ![27, 100000, 32]⟩
abbrev S2700000 : Shape := ⟨1, ![2700000]⟩
abbrev S2700000x32 : Shape := ⟨2, ![2700000, 32]⟩
abbrev S2700000x1 : Shape := ⟨2, ![2700000, 1]⟩
abbrev S1x32 : Shape := ⟨2, ![1, 32]⟩

abbrev nBuf : Space → Nat
  | .hbm => 76
  | .vmem => 0
  | .smem => 0
  | _ => 0

abbrev bufTy : (tb : Table) → Fin (tcTables nBuf tb) → BufTy
  | .hbm, ⟨0, _⟩ => ⟨S200000x32, .f32⟩
  | .hbm, ⟨1, _⟩ => ⟨S27x32x32, .f32⟩
  | .hbm, ⟨2, _⟩ => ⟨S32, .f32⟩
  | .hbm, ⟨3, _⟩ => ⟨S32, .f32⟩
  | .hbm, ⟨4, _⟩ => ⟨S27x100000, .i32⟩
  | .hbm, ⟨5, _⟩ => ⟨S27x100000, .i32⟩
  | .hbm, ⟨6, _⟩ => ⟨S_, .i32⟩
  | .hbm, ⟨7, _⟩ => ⟨S27x100000, .i32⟩
  | .hbm, ⟨8, _⟩ => ⟨S27x100000, .i1⟩
  | .hbm, ⟨9, _⟩ => ⟨S_, .i32⟩
  | .hbm, ⟨10, _⟩ => ⟨S27x100000, .i32⟩
  | .hbm, ⟨11, _⟩ => ⟨S27x100000, .i32⟩
  | .hbm, ⟨12, _⟩ => ⟨S27x100000, .i32⟩
  | .hbm, ⟨13, _⟩ => ⟨S27x100000x1, .i32⟩
  | .hbm, ⟨14, _⟩ => ⟨S27x100000x32, .f32⟩
  | .hbm, ⟨15, _⟩ => ⟨S27x100000x32, .f32⟩
  | .hbm, ⟨16, _⟩ => ⟨S_, .f32⟩
  | .hbm, ⟨17, _⟩ => ⟨S200000x32, .f32⟩
  | .hbm, ⟨18, _⟩ => ⟨S2700000, .i32⟩
  | .hbm, ⟨19, _⟩ => ⟨S2700000x32, .f32⟩
  | .hbm, ⟨20, _⟩ => ⟨S_, .i32⟩
  | .hbm, ⟨21, _⟩ => ⟨S2700000, .i32⟩
  | .hbm, ⟨22, _⟩ => ⟨S2700000, .i1⟩
  | .hbm, ⟨23, _⟩ => ⟨S_, .i32⟩
  | .hbm, ⟨24, _⟩ => ⟨S2700000, .i32⟩
  | .hbm, ⟨25, _⟩ => ⟨S2700000, .i32⟩
  | .hbm, ⟨26, _⟩ => ⟨S2700000, .i32⟩
  | .hbm, ⟨27, _⟩ => ⟨S2700000x1, .i32⟩
  | .hbm, ⟨28, _⟩ => ⟨S200000x32, .f32⟩
  | .hbm, ⟨29, _⟩ => ⟨S_, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .i32⟩
  | .hbm, ⟨35, _⟩ => ⟨S_, .f32⟩
  | .hbm, ⟨36, _⟩ => ⟨S32, .f32⟩
  | .hbm, ⟨37, _⟩ => ⟨S1x32, .f32⟩
  | .hbm, ⟨38, _⟩ => ⟨S_, .f32⟩
  | .hbm, ⟨39, _⟩ => ⟨S1x32, .f32⟩
  | .hbm, ⟨40, _⟩ => ⟨S1x32, .f32⟩
  | .hbm, ⟨41, _⟩ => ⟨S200000x32, .f32⟩
  | .hbm, ⟨42, _⟩ => ⟨S200000x32, .f32⟩
  | .hbm, ⟨43, _⟩ => ⟨S200000x32, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S_, .i1⟩
  | .hbm, ⟨53, _⟩ => ⟨S_, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S1x32, .f32⟩
  | .hbm, ⟨58, _⟩ => ⟨S200000x32, .f32⟩
  | .hbm, ⟨59, _⟩ => ⟨S200000x32, .f32⟩
  | .hbm, ⟨60, _⟩ => ⟨S1x32, .f32⟩
  | .hbm, ⟨61, _⟩ => ⟨S200000x32, .f32⟩
  | .hbm, ⟨62, _⟩ => ⟨S200000x32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S32, .f32⟩
  | .hbm, ⟨67, _⟩ => ⟨S1x32, .f32⟩
  | .hbm, ⟨68, _⟩ => ⟨S200000x32, .f32⟩
  | .hbm, ⟨69, _⟩ => ⟨S200000x32, .f32⟩
  | .hbm, ⟨70, _⟩ => ⟨S1x32, .f32⟩
  | .hbm, ⟨71, _⟩ => ⟨S200000x32, .f32⟩
  | .hbm, ⟨72, _⟩ => ⟨S200000x32, .f32⟩
  | .hbm, ⟨73, _⟩ => ⟨S_, .f32⟩
  | .hbm, ⟨74, _⟩ => ⟨S200000x32, .f32⟩
  | .hbm, ⟨75, _⟩ => ⟨S200000x32, .f32⟩
  | _, _ => ⟨S200000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_cst_1 : Ref sig .tc := ⟨.hbm, 45, rfl⟩
abbrev main_call0_v8 : Ref sig .tc := ⟨.hbm, 46, rfl⟩
abbrev main_call0_cst_2 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_cst_3 : Ref sig .tc := ⟨.hbm, 51, rfl⟩
abbrev main_call0_v12 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_6 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_call1_cst : Ref sig .tc := ⟨.hbm, 73, rfl⟩
abbrev main_call1_v0 : Ref sig .tc := ⟨.hbm, 74, rfl⟩
abbrev main_v37 : Ref sig .tc := ⟨.hbm, 75, rfl⟩

abbrev nD : Nat := 1
abbrev τ : Topo := Topo.v7x

variable {F : FTy → Type} [FloatOps F]

class Facts₀ : Prop where
  bcast_S_S27x100000 : S_.BroadcastsInDim S27x100000 (![] : Fin 0 → Fin S27x100000.rank)
  bcast_S27x100000_S27x100000x1_0_1 : S27x100000.BroadcastsInDim S27x100000x1 (![0, 1] : Fin 2 → Fin S27x100000x1.rank)
  bcast_S_S200000x32 : S_.BroadcastsInDim S200000x32 (![] : Fin 0 → Fin S200000x32.rank)
  shapeCasts_S27x100000_S2700000 : S27x100000.ShapeCasts S2700000
  shapeCasts_S27x100000x32_S2700000x32 : S27x100000x32.ShapeCasts S2700000x32
  bcast_S_S2700000 : S_.BroadcastsInDim S2700000 (![] : Fin 0 → Fin S2700000.rank)
  bcast_S2700000_S2700000x1_0 : S2700000.BroadcastsInDim S2700000x1 (![0] : Fin 1 → Fin S2700000x1.rank)
  reducesTo_S200000x32_S32_d0 : S200000x32.ReducesTo [0] S32
  h_S_ : 0 < S_.numel
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S200000x32_0_1 : S1x32.BroadcastsInDim S200000x32 (![0, 1] : Fin 2 → Fin S200000x32.rank)
  gather_S200000x32_S27x100000x1_S27x100000x32_2_0_n_n_0_2_132_wf : GatherDims.WF S200000x32 S27x100000x1 S27x100000x32 [2] [0] [] [0] [] 2 ![1, 32]
  dot_S27x100000x32_S27x32x32_S27x100000x32_2_1_1_2_0_0_wf : DotDims.WF S27x100000x32 S27x32x32 S27x100000x32 [2] [1] [1] [2] [0] [0]
  scatter_S200000x32_S2700000x1_S2700000x32_1_0_0_1_wf : ScatterDims.WF S200000x32 S2700000x1 S2700000x32 [1] [0] [0] 1

variable [Facts₀]

def gather_S200000x32_S27x100000x1_S27x100000x32_2_0_n_n_0_2_132 : GatherDims S200000x32 S27x100000x1 S27x100000x32 where
  offsetDims := [2]
  collapsedSliceDims := [0]
  operandBatchingDims := []
  startIndicesBatchingDims := []
  startIndexMap := [0]
  indexVectorDim := 2
  sliceSizes := ![1, 32]
  wf := gather_S200000x32_S27x100000x1_S27x100000x32_2_0_n_n_0_2_132_wf
def dot_S27x100000x32_S27x32x32_S27x100000x32_2_1_1_2_0_0 : DotDims S27x100000x32 S27x32x32 S27x100000x32 where
  lhsContracting := [2]
  rhsContracting := [1]
  lhsNonContracting := [1]
  rhsNonContracting := [2]
  lhsBatch := [0]
  rhsBatch := [0]
  wf := dot_S27x100000x32_S27x32x32_S27x100000x32_2_1_1_2_0_0_wf
def scatter_S200000x32_S2700000x1_S2700000x32_1_0_0_1 : ScatterDims S200000x32 S2700000x1 S2700000x32 where
  updateWindowDims := [1]
  insertedWindowDims := [0]
  scatterDimsToOperandDims := [0]
  indexVectorDim := 1
  wf := scatter_S200000x32_S2700000x1_S2700000x32_1_0_0_1_wf

class Facts : Prop extends Facts₀ where

variable [Facts]
-- ==== Proof.RefRun.lean ====
/-
  The reference program's run. The reference is a host program of StableHLO operations only: @main's own
  forty-five operations and, at its two calls, the bodies of @_var (nineteen operations and a call of @_where,
  three more) and of @relu (three). A call means its callee's body substituted at the call site, so the program
  is one straight line of seventy operations; every buffer ends at the fold of those operations over the launch
  contents, and the result buffer's fold is named here as two stages:

    conv  — the sparse convolution: rows of the input gathered at the (wrapped) input indices, multiplied
            per kernel offset by that offset's weight matrix, and summed into the rows named by the (wrapped)
            output indices, starting from zero;
    bn    — the batch normalisation of the columns of that array in training mode (the column mean, the
            biased column variance computed about the mean, the scale gamma and shift beta), then the clamp
            at zero.
-/
import proofs.«172280_j16088947491314_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: twenty-nine of @main's own (the two index wraps, the gather,
    the per-offset products, the scatter-add, the column sums and their quotient by the row count, the zero passed
    to @_var), then @_var's nineteen over `main_call0`'s buffers with @_where's three over `main_call0.call0`'s
    (the last the select that is @_var's result, `main_v21`), then @main's sixteen of the normalisation, then
    @relu's three over `main_call1`'s (the last the maximum that is @main's result, `main_v37`). -/
abbrev ops : List (HloOp τ sig (Elt F)) :=
  [
    nullary main_c (constantI S_ 32 0#32),
    unary main_c main_v0 (broadcastInDim S27x100000 ![] bcast_S_S27x100000 : (⟨S_, .i32⟩ : BufTy).Contents (Elt F) → (⟨S27x100000, .i32⟩ : BufTy).Contents (Elt F)),
    binary main_arg4 main_v0 main_v1 (cmpi .slt : (⟨S27x100000, .i32⟩ : BufTy).Contents (Elt F) → (⟨S27x100000, .i32⟩ : BufTy).Contents (Elt F) → (⟨S27x100000, .i1⟩ : BufTy).Contents (Elt F)),
    nullary main_c_0 (constantI S_ 32 200000#32),
    unary main_c_0 main_v2 (broadcastInDim S27x100000 ![] bcast_S_S27x100000 : (⟨S_, .i32⟩ : BufTy).Contents (Elt F) → (⟨S27x100000, .i32⟩ : BufTy).Contents (Elt F)),
    binary main_arg4 main_v2 main_v3 (addi : (⟨S27x100000, .i32⟩ : BufTy).Contents (Elt F) → (⟨S27x100000, .i32⟩ : BufTy).Contents (Elt F) → (⟨S27x100000, .i32⟩ : BufTy).Contents (Elt F)),
    ternary main_v1 main_v3 main_arg4 main_v4 (select : (⟨S27x100000, .i1⟩ : BufTy).Contents (Elt F) → (⟨S27x100000, .i32⟩ : BufTy).Contents (Elt F) → (⟨S27x100000, .i32⟩ : BufTy).Contents (Elt F) → (⟨S27x100000, .i32⟩ : BufTy).Contents (Elt F)),
    unary main_v4 main_v5 (broadcastInDim S27x100000x1 ![0, 1] bcast_S27x100000_S27x100000x1_0_1 : (⟨S27x100000, .i32⟩ : BufTy).Contents (Elt F) → (⟨S27x100000x1, .i32⟩ : BufTy).Contents (Elt F)),
    binary main_arg0 main_v5 main_v6 ((fun x i => Host.gather gather_S200000x32_S27x100000x1_S27x100000x32_2_0_n_n_0_2_132 x i) : (⟨S200000x32, .f32⟩ : BufTy).Contents (Elt F) → (⟨S27x100000x1, .i32⟩ : BufTy).Contents (Elt F) → (⟨S27x100000x32, .f32⟩ : BufTy).Contents (Elt F)),
    binary main_v6 main_arg1 main_v7 ((fun l r => Host.dotGeneral dot_S27x100000x32_S27x32x32_S27x100000x32_2_1_1_2_0_0 none l r) : (⟨S27x100000x32, .f32⟩ : BufTy).Contents (Elt F) → (⟨S27x32x32, .f32⟩ : BufTy).Contents (Elt F) → (⟨S27x100000x32, .f32⟩ : BufTy).Contents (Elt F)),
    nullary main_cst (constant S_ .f32 0x00000000#32),
    unary main_cst main_v8 (broadcastInDim S200000x32 ![] bcast_S_S200000x32 : (⟨S_, .f32⟩ : BufTy).Contents (Elt F) → (⟨S200000x32, .f32⟩ : BufTy).Contents (Elt F)),
    reshape main_arg5 main_v9 rfl shapeCasts_S27x100000_S2700000,
    reshape main_v7 main_v10 rfl shapeCasts_S27x100000x32_S2700000x32,
    nullary main_c_1 (constantI S_ 32 0#32),
    unary main_c_1 main_v11 (broadcastInDim S2700000 ![] bcast_S_S2700000 : (⟨S_, .i32⟩ : BufTy).Contents (Elt F) → (⟨S2700000, .i32⟩ : BufTy).Contents (Elt F)),
    binary main_v9 main_v11 main_v12 (cmpi .slt : (⟨S2700000, .i32⟩ : BufTy).Contents (Elt F) → (⟨S2700000, .i32⟩ : BufTy).Contents (Elt F) → (⟨S2700000, .i1⟩ : BufTy).Contents (Elt F)),
    nullary main_c_2 (constantI S_ 32 200000#32),
    unary main_c_2 main_v13 (broadcastInDim S2700000 ![] bcast_S_S2700000 : (⟨S_, .i32⟩ : BufTy).Contents (Elt F) → (⟨S2700000, .i32⟩ : BufTy).Contents (Elt F)),
    binary main_v9 main_v13 main_v14 (addi : (⟨S2700000, .i32⟩ : BufTy).Contents (Elt F) → (⟨S2700000, .i32⟩ : BufTy).Contents (Elt F) → (⟨S2700000, .i32⟩ : BufTy).Contents (Elt F)),
    ternary main_v12 main_v14 main_v9 main_v15 (select : (⟨S2700000, .i1⟩ : BufTy).Contents (Elt F) → (⟨S2700000, .i32⟩ : BufTy).Contents (Elt F) → (⟨S2700000, .i32⟩ : BufTy).Contents (Elt F) → (⟨S2700000, .i32⟩ : BufTy).Contents (Elt F)),
    unary main_v15 main_v16 (broadcastInDim S2700000x1 ![0] bcast_S2700000_S2700000x1_0 : (⟨S2700000, .i32⟩ : BufTy).Contents (Elt F) → (⟨S2700000x1, .i32⟩ : BufTy).Contents (Elt F)),
    ternary main_v8 main_v16 main_v10 main_v17 ((fun x i u => Host.scatterAdd scatter_S200000x32_S2700000x1_S2700000x32_1_0_0_1 x i u) : (⟨S200000x32, .f32⟩ : BufTy).Contents (Elt F) → (⟨S2700000x1, .i32⟩ : BufTy).Contents (Elt F) → (⟨S2700000x32, .f32⟩ : BufTy).Contents (Elt F) → (⟨S200000x32, .f32⟩ : BufTy).Contents (Elt F)),
    nullary main_cst_3 (constant S_ .f32 0x00000000#32),
    binary main_v17 main_cst_3 main_v18 ((fun x v => Host.reduceAdd x v reducesTo_S200000x32_S32_d0 h_S_) : (⟨S200000x32, .f32⟩ : BufTy).Contents (Elt F) → (⟨S_, .f32⟩ : BufTy).Contents (Elt F) → (⟨S32, .f32⟩ : BufTy).Contents (Elt F)),
    nullary main_cst_4 (constant S_ .f32 0x48435000#32),
    unary main_cst_4 main_v19 (broadcastInDim S32 ![] bcast_S_S32 : (⟨S_, .f32⟩ : BufTy).Contents (Elt F) → (⟨S32, .f32⟩ : BufTy).Contents (Elt F)),
    binary main_v18 main_v19 main_v20 (Host.divf : (⟨S32, .f32⟩ : BufTy).Contents (Elt F) → (⟨S32, .f32⟩ : BufTy).Contents (Elt F) → (⟨S32, .f32⟩ : BufTy).Contents (Elt F)),
    nullary main_c_5 (constantI S_ 32 0#32),
    TRef.nullary main_call0.cst (constant S_ .f32 0x00000000#32),
    TRef.binary (.of main_v17) main_call0.cst main_call0.v0 (fun x v => Host.reduceAdd x v reducesTo_S200000x32_S32_d0 h_S_),
    TRef.unary main_call0.v0 main_call0.v1 (broadcastInDim S1x32 ![1] bcast_S32_S1x32_1),
    TRef.nullary main_call0.cst_0 (constant S_ .f32 0x48435000#32),
    TRef.unary main_call0.cst_0 main_call0.v2 (broadcastInDim S1x32 ![] bcast_S_S1x32),
    TRef.binary main_call0.v1 main_call0.v2 main_call0.v3 Host.divf,
    TRef.unary main_call0.v3 main_call0.v4 (broadcastInDim S200000x32 ![0, 1] bcast_S1x32_S200000x32_0_1),
    TRef.binary (.of main_v17) main_call0.v4 main_call0.v5 subf,
    TRef.binary main_call0.v5 main_call0.v5 main_call0.v6 mulf,
    TRef.unary (.of main_c_5) main_call0.v7 (sitofp .f32),
    TRef.nullary main_call0.cst_1 (constant S_ .f32 0x48435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S200000x32_S32_d0 h_S_),
    TRef.unary main_call0.v8 main_call0.v10 (broadcastInDim S32 ![] bcast_S_S32),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S32 ![] bcast_S_S32),
    TRef.ternary main_call0.v12 main_call0.v11 main_call0.call0.v1 main_call0.call0.v2 (fun p a b => select (broadcastInDim S32 ![] bcast_S_S32 p) a b),
    unary main_v20 main_v22 (broadcastInDim S1x32 ![1] bcast_S32_S1x32_1 : (⟨S32, .f32⟩ : BufTy).Contents (Elt F) → (⟨S1x32, .f32⟩ : BufTy).Contents (Elt F)),
    unary main_v22 main_v23 (broadcastInDim S200000x32 ![0, 1] bcast_S1x32_S200000x32_0_1 : (⟨S1x32, .f32⟩ : BufTy).Contents (Elt F) → (⟨S200000x32, .f32⟩ : BufTy).Contents (Elt F)),
    binary main_v17 main_v23 main_v24 (subf : (⟨S200000x32, .f32⟩ : BufTy).Contents (Elt F) → (⟨S200000x32, .f32⟩ : BufTy).Contents (Elt F) → (⟨S200000x32, .f32⟩ : BufTy).Contents (Elt F)),
    unary main_arg2 main_v25 (broadcastInDim S1x32 ![1] bcast_S32_S1x32_1 : (⟨S32, .f32⟩ : BufTy).Contents (Elt F) → (⟨S1x32, .f32⟩ : BufTy).Contents (Elt F)),
    unary main_v25 main_v26 (broadcastInDim S200000x32 ![0, 1] bcast_S1x32_S200000x32_0_1 : (⟨S1x32, .f32⟩ : BufTy).Contents (Elt F) → (⟨S200000x32, .f32⟩ : BufTy).Contents (Elt F)),
    binary main_v26 main_v24 main_v27 (mulf : (⟨S200000x32, .f32⟩ : BufTy).Contents (Elt F) → (⟨S200000x32, .f32⟩ : BufTy).Contents (Elt F) → (⟨S200000x32, .f32⟩ : BufTy).Contents (Elt F)),
    nullary main_cst_6 (constant S_ .f32 0x3727C5AC#32),
    unary main_cst_6 main_v28 (broadcastInDim S32 ![] bcast_S_S32 : (⟨S_, .f32⟩ : BufTy).Contents (Elt F) → (⟨S32, .f32⟩ : BufTy).Contents (Elt F)),
    binary main_v21 main_v28 main_v29 (addf : (⟨S32, .f32⟩ : BufTy).Contents (Elt F) → (⟨S32, .f32⟩ : BufTy).Contents (Elt F) → (⟨S32, .f32⟩ : BufTy).Contents (Elt F)),
    unary main_v29 main_v30 (Host.rsqrt : (⟨S32, .f32⟩ : BufTy).Contents (Elt F) → (⟨S32, .f32⟩ : BufTy).Contents (Elt F)),
    unary main_v30 main_v31 (broadcastInDim S1x32 ![1] bcast_S32_S1x32_1 : (⟨S32, .f32⟩ : BufTy).Contents (Elt F) → (⟨S1x32, .f32⟩ : BufTy).Contents (Elt F)),
    unary main_v31 main_v32 (broadcastInDim S200000x32 ![0, 1] bcast_S1x32_S200000x32_0_1 : (⟨S1x32, .f32⟩ : BufTy).Contents (Elt F) → (⟨S200000x32, .f32⟩ : BufTy).Contents (Elt F)),
    binary main_v27 main_v32 main_v33 (mulf : (⟨S200000x32, .f32⟩ : BufTy).Contents (Elt F) → (⟨S200000x32, .f32⟩ : BufTy).Contents (Elt F) → (⟨S200000x32, .f32⟩ : BufTy).Contents (Elt F)),
    unary main_arg3 main_v34 (broadcastInDim S1x32 ![1] bcast_S32_S1x32_1 : (⟨S32, .f32⟩ : BufTy).Contents (Elt F) → (⟨S1x32, .f32⟩ : BufTy).Contents (Elt F)),
    unary main_v34 main_v35 (broadcastInDim S200000x32 ![0, 1] bcast_S1x32_S200000x32_0_1 : (⟨S1x32, .f32⟩ : BufTy).Contents (Elt F) → (⟨S200000x32, .f32⟩ : BufTy).Contents (Elt F)),
    binary main_v33 main_v35 main_v36 (addf : (⟨S200000x32, .f32⟩ : BufTy).Contents (Elt F) → (⟨S200000x32, .f32⟩ : BufTy).Contents (Elt F) → (⟨S200000x32, .f32⟩ : BufTy).Contents (Elt F)),
    TRef.nullary main_call1.cst (constant S_ .f32 0x00000000#32),
    TRef.unary main_call1.cst main_call1.v0 (broadcastInDim S200000x32 ![] bcast_S_S200000x32),
    TRef.binary (.of main_v36) main_call1.v0 main_call1.v1 maximumf ]

set_option maxRecDepth 8192 in
/-- @main is that straight line: the callees' definitions unfolded at their calls and the records at their
    fields, both sides are one chain of `hlo` steps — sequencing a step's continuation with what follows is
    that step continued by both, by the definition of sequencing — so the two are equal by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., reshape_bufs_sub .., reshape_bufs_sub .., nullary_bufs_sub .., unary_bufs_sub .., binary_bufs_sub .., nullary_bufs_sub .., unary_bufs_sub .., binary_bufs_sub .., ternary_bufs_sub .., unary_bufs_sub .., ternary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

/-- At the compiled mesh, for any float values, from any memory with zero counters: every weakly fair execution
    of @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result, named -/

/-- The wrapped index columns (a negative index counts from the end: `select(i < 0, i + 200000, i)`), then given a
    trailing unit axis: the gather's start indices. -/
def idx4 (i4 : IVec S27x100000 32) : IVec S27x100000x1 32 :=
  broadcastInDim S27x100000x1 ![0, 1] bcast_S27x100000_S27x100000x1_0_1
    (select (cmpi .slt i4 (broadcastInDim S27x100000 ![] bcast_S_S27x100000 (constantI S_ 32 0#32)))
      (addi i4 (broadcastInDim S27x100000 ![] bcast_S_S27x100000 (constantI S_ 32 200000#32))) i4)

/-- The output index columns laid out as one column of 27 · 100000 entries, wrapped the same way, then given a
    trailing unit axis: the scatter's indices. -/
def idx5 (i5 : IVec S27x100000 32) : IVec S2700000x1 32 :=
  broadcastInDim S2700000x1 ![0] bcast_S2700000_S2700000x1_0
    (select (cmpi .slt (shapeCast S2700000 i5 shapeCasts_S27x100000_S2700000)
        (broadcastInDim S2700000 ![] bcast_S_S2700000 (constantI S_ 32 0#32)))
      (addi (shapeCast S2700000 i5 shapeCasts_S27x100000_S2700000)
        (broadcastInDim S2700000 ![] bcast_S_S2700000 (constantI S_ 32 200000#32)))
      (shapeCast S2700000 i5 shapeCasts_S27x100000_S2700000))

/-- The convolution stage: for each kernel offset k and each pair p, row `i4[k, p]` of `x` times the weight
    matrix `W[k]`, the 27 · 100000 product rows laid out as one list and added into the rows `i5[k, p]` of an
    array of zeros. -/
def conv (x : FVec F S200000x32 .f32) (W : FVec F S27x32x32 .f32) (i4 i5 : IVec S27x100000 32) : FVec F S200000x32 .f32 :=
  Host.scatterAdd scatter_S200000x32_S2700000x1_S2700000x32_1_0_0_1
    (broadcastInDim S200000x32 ![] bcast_S_S200000x32 (constant S_ .f32 0x00000000#32)) (idx5 i5)
    (shapeCast S2700000x32
      (Host.dotGeneral dot_S27x100000x32_S27x32x32_S27x100000x32_2_1_1_2_0_0 none
        (Host.gather gather_S200000x32_S27x100000x1_S27x100000x32_2_0_n_n_0_2_132 x (idx4 i4)) W)
      shapeCasts_S27x100000x32_S2700000x32)

/-- A vector of 32 column values repeated down the 200000 rows (through a leading unit axis, as printed). -/
def rows (v : FVec F S32 .f32) : FVec F S200000x32 .f32 :=
  broadcastInDim S200000x32 ![0, 1] bcast_S1x32_S200000x32_0_1 (broadcastInDim S1x32 ![1] bcast_S32_S1x32_1 v)

/-- The column sums from zero, over the row count 200000 as a broadcast f32 constant: the column means that the
    normalisation subtracts. -/
def colMean (o : FVec F S200000x32 .f32) : FVec F S32 .f32 :=
  Host.divf (Host.reduceAdd o (constant S_ .f32 0x00000000#32) reducesTo_S200000x32_S32_d0 h_S_)
    (broadcastInDim S32 ![] bcast_S_S32 (constant S_ .f32 0x48435000#32))

/-- The deviations from the column means as the variance computes them: the column sums from zero, given a
    leading unit axis, divided by the row count broadcast to that shape, repeated down the rows, subtracted. -/
def dev (o : FVec F S200000x32 .f32) : FVec F S200000x32 .f32 :=
  subf o (broadcastInDim S200000x32 ![0, 1] bcast_S1x32_S200000x32_0_1
    (Host.divf
      (broadcastInDim S1x32 ![1] bcast_S32_S1x32_1
        (Host.reduceAdd o (constant S_ .f32 0x00000000#32) reducesTo_S200000x32_S32_d0 h_S_))
      (broadcastInDim S1x32 ![] bcast_S_S1x32 (constant S_ .f32 0x48435000#32))))

/-- The variance's divisor: the row count less the correction, the integer zero converted to f32. -/
def count : FVec F S_ .f32 :=
  subf (constant S_ .f32 0x48435000#32) (sitofp .f32 (constantI S_ 32 0#32))

/-- The column variances: the column sums from zero of the squared deviations over the divisor, where the divisor
    is positive, and the quiet NaN word where it is not. -/
def colVar (o : FVec F S200000x32 .f32) : FVec F S32 .f32 :=
  select (broadcastInDim S32 ![] bcast_S_S32 (cmpf .ogt (count (F := F)) (constant S_ .f32 0x00000000#32)))
    (Host.divf
      (Host.reduceAdd (mulf (dev o) (dev o)) (constant S_ .f32 0x00000000#32) reducesTo_S200000x32_S32_d0 h_S_)
      (broadcastInDim S32 ![] bcast_S_S32 (count (F := F))))
    (broadcastInDim S32 ![] bcast_S_S32 (constant S_ .f32 0x7FC00000#32))

/-- The batch-normalisation stage: gamma · (o − mean) · rsqrt(var + ε) + beta down every column, then the maximum
    with zero. -/
def bn (o : FVec F S200000x32 .f32) (g b : FVec F S32 .f32) : FVec F S200000x32 .f32 :=
  maximumf
    (addf
      (mulf (mulf (rows g) (subf o (rows (colMean o))))
        (rows (Host.rsqrt (addf (colVar o) (broadcastInDim S32 ![] bcast_S_S32 (constant S_ .f32 0x3727C5AC#32))))))
      (rows b))
    (broadcastInDim S200000x32 ![] bcast_S_S200000x32 (constant S_ .f32 0x00000000#32))

attribute [local irreducible] Host.reduceAdd Host.gather Host.scatterAdd Host.divf Host.rsqrt in
set_option maxRecDepth 16384 in
set_option maxHeartbeats 1600000 in
/-- The fold at the result buffer is `bn (conv …) …` by computation: the fold unrolled, each operation's result
    decides whether the buffer read is the one it writes, and the typed references' casts are the identity at these
    literal references. The sums, the gather, the products and the scatter-add are kept folded meanwhile: the
    equation never looks inside them. -/
theorem out_eq (V : Valuation τ sig (Elt F)) :
    after ops V (main_v37 : DevRef τ sig)
      = bn (conv (V (main_arg0 : DevRef τ sig)) (V (main_arg1 : DevRef τ sig)) (V (main_arg4 : DevRef τ sig))
            (V (main_arg5 : DevRef τ sig))) (V (main_arg2 : DevRef τ sig)) (V (main_arg3 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

/-- The run with the result named and the arguments unchanged: on every device, for any float values, from any
    memory with zero counters, every weakly fair execution of @main terminates with the result buffer at
    `bn (conv …) …` of the arguments' launch contents and each argument buffer as it was. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37) = bn (conv (m ((c.tc : Thread nD τ).loc main_arg0)) (m ((c.tc : Thread nD τ).loc main_arg1))
          (m ((c.tc : Thread nD τ).loc main_arg4)) (m ((c.tc : Thread nD τ).loc main_arg5))) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c main_v37).trans (out_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _)⟩)
    (run_main m ρ)

end Cert.ReferenceIdeal.RefRun

end
-- ==== Proof.KRun.lean ====
/-
  The idealized kernel's run with its result named.

  @main is six segments: three stretches of host operations, each followed by a pipelined kernel region.
  The contents of every TensorCore buffer at each boundary are a fold from the launch memory: a host
  stretch applies its operations, a region replaces its output arrays by what its write-backs leave and
  keeps every other buffer.  Every weakly fair execution terminates with each unscoped buffer at the last
  boundary's contents; kept here are the result array and the six argument arrays, which no segment writes.
-/
import proofs.«172280_j16088947491314_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last
    boundary's contents and the argument arrays as launched. -/
theorem run : θ_run defs (onTc (τ := τ) (main (F := F))) ⟨m, fun _ => 0, ρ⟩ (fun r => ∀ c : Dev nD,
      r.2.mem ((c.tc : Thread nD τ).loc main_v33) = W6 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v33 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.KRun

end
-- ==== Proof.KHost.lean ====
/-
  The host operations between the kernel regions, read back.

  Before the first region: the row indices are wrapped (a negative index counts from the end: i + 200000) and
  the rows of x are gathered.  Between the first and the second: the products are laid out as 2700000 rows and
  scatter-added into zeros at the wrapped output indices.  Between the second and the third: from the column
  sums S and the column sums of squares Q the mean S / N, the variance Q / N - mean * mean, the row
  scale = gamma * rsqrt (variance + eps) and the row shift = beta - mean * scale.
  Each value is stated against the launch memory `m` and the arrays the regions leave.
-/
import proofs.«172280_j16088947491314_1_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.KHost

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- A buffer no operation of a stretch writes is the same after the stretch. -/
local macro "not_written" : tactic => `(tactic|
  (refine StableHlo.after_of_forall_not_mem _ _ (List.forall_iff_forall_mem.mp ?_)
   simp only [hostOps0, hostOps1, hostOps2, List.Forall, StableHlo.nullary_writes, StableHlo.unary_writes, StableHlo.binary_writes,
     StableHlo.ternary_writes, StableHlo.reshape_writes, Finset.mem_singleton]
   repeat' apply And.intro
   all_goals exact StableHlo.devRef_ne_of_ne (by decide)))

/-! ## Arguments and arrays at the boundaries -/

theorem W1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := by not_written
    _ = m ((c : Thread nD τ).loc main_arg1) := rfl

theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by not_written
    _ = m ((c : Thread nD τ).loc main_arg5) := rfl

theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by not_written
    _ = W1 m ρ c (Proc.devRef .tc main_arg2) := W2_of_ne m ρ c main_arg2 (by decide)
    _ = W0 m ρ c (Proc.devRef .tc main_arg2) := by not_written
    _ = m ((c : Thread nD τ).loc main_arg2) := rfl

theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by not_written
    _ = W1 m ρ c (Proc.devRef .tc main_arg3) := W2_of_ne m ρ c main_arg3 (by decide)
    _ = W0 m ρ c (Proc.devRef .tc main_arg3) := by not_written
    _ = m ((c : Thread nD τ).loc main_arg3) := rfl

/-- The scattered array is an input of the second region: the region leaves it as it found it. -/
theorem W4_v17 (c : Dev nD) : W4 m ρ c (Proc.devRef .tc main_v17) = V3 m ρ c main_v17 :=
  (W4_arr m ρ c 0).trans (((dat1 (V3 m ρ) c).arrAt_in 0 rfl _).trans (A_eq1 (V3 m ρ) c 0))

/-- …and no operation of the last stretch writes it. -/
theorem V5_v17 (c : Dev nD) : V5 m ρ c main_v17 = V3 m ρ c main_v17 :=
  calc W5 m ρ c (Proc.devRef .tc main_v17)
    _ = W4 m ρ c (Proc.devRef .tc main_v17) := by not_written
    _ = V3 m ρ c main_v17 := W4_v17 m ρ c

/-! ## The first stretch: wrap the input indices, gather the rows -/

/-- The input row indices wrapped (a negative index counts from the end), with a trailing unit axis. -/
def idx4 (i4 : IVec S27x100000 32) : IVec S27x100000x1 32 :=
  broadcastInDim S27x100000x1 ![0, 1] bcast_S27x100000_S27x100000x1_0_1
    (select (cmpi .slt i4 (broadcastInDim S27x100000 ![] bcast_S_S27x100000 (constantI S_ 32 0#32)))
      (addi i4 (broadcastInDim S27x100000 ![] bcast_S_S27x100000 (constantI S_ 32 200000#32))) i4)

theorem V1_v6 (c : Dev nD) :
    V1 m ρ c main_v6 = Host.gather gather_S200000x32_S27x100000x1_S27x100000x32_2_0_n_n_0_2_132
      (m ((c : Thread nD τ).loc main_arg0)) (idx4 (m ((c : Thread nD τ).loc main_arg4))) := by
  show StableHlo.after hostOps0 (W0 m ρ c) (Proc.devRef .tc main_v6) = _
  after_results
  rfl

theorem V1_arg1 (c : Dev nD) : V1 m ρ c main_arg1 = m ((c : Thread nD τ).loc main_arg1) := W1_arg1 m ρ c

/-! ## The second stretch: lay the products out as rows, wrap the output indices, scatter-add into zeros -/

/-- The output row indices as one column of 2700000, wrapped, with a trailing unit axis. -/
def idx5 (i5 : IVec S27x100000 32) : IVec S2700000x1 32 :=
  broadcastInDim S2700000x1 ![0] bcast_S2700000_S2700000x1_0
    (select (cmpi .slt (shapeCast S2700000 i5 shapeCasts_S27x100000_S2700000)
        (broadcastInDim S2700000 ![] bcast_S_S2700000 (constantI S_ 32 0#32)))
      (addi (shapeCast S2700000 i5 shapeCasts_S27x100000_S2700000)
        (broadcastInDim S2700000 ![] bcast_S_S2700000 (constantI S_ 32 200000#32)))
      (shapeCast S2700000 i5 shapeCasts_S27x100000_S2700000))

/-- The scatter-add of the rows `u` at the wrapped indices into zeros. -/
def scattered (u : FVec Ideal S27x100000x32 .f32) (i5 : IVec S27x100000 32) : FVec Ideal S200000x32 .f32 :=
  Host.scatterAdd scatter_S200000x32_S2700000x1_S2700000x32_1_0_0_1
    (broadcastInDim S200000x32 ![] bcast_S_S200000x32 (constant S_ .f32 0x00000000#32))
    (idx5 i5) (shapeCast S2700000x32 u shapeCasts_S27x100000x32_S2700000x32)

theorem V3_v17 (c : Dev nD) :
    V3 m ρ c main_v17 = scattered ((dat0 (V1 m ρ) c).arrAt 2 cfg0.N) (m ((c : Thread nD τ).loc main_arg5)) := by
  show StableHlo.after hostOps1 (W2 m ρ c) (Proc.devRef .tc main_v17) = _
  after_results
  rw [W2_arg5 m ρ c, W2_arr m ρ c 2]
  rfl

/-! ## The third stretch: mean, variance, scale and shift rows -/

/-- The scale row: gamma times the reciprocal square root of the variance plus eps. -/
def scaleRow (S Q : FVec Ideal S1x32 .f32) (g : FVec Ideal S32 .f32) : FVec Ideal S1x32 .f32 :=
  mulf (shapeCast S1x32 g shapeCasts_S32_S1x32)
    (Host.rsqrt (addf
      (subf (Host.divf Q (broadcastInDim S1x32 ![] bcast_S_S1x32 (constant S_ .f32 0x48435000#32)))
        (mulf (Host.divf S (broadcastInDim S1x32 ![] bcast_S_S1x32 (constant S_ .f32 0x48435000#32)))
          (Host.divf S (broadcastInDim S1x32 ![] bcast_S_S1x32 (constant S_ .f32 0x48435000#32)))))
      (broadcastInDim S1x32 ![] bcast_S_S1x32 (constant S_ .f32 0x3727C5AC#32))))

/-- The shift row: beta minus the mean times the scale. -/
def shiftRow (S Q : FVec Ideal S1x32 .f32) (g b : FVec Ideal S32 .f32) : FVec Ideal S1x32 .f32 :=
  subf (shapeCast S1x32 b shapeCasts_S32_S1x32)
    (mulf (Host.divf S (broadcastInDim S1x32 ![] bcast_S_S1x32 (constant S_ .f32 0x48435000#32))) (scaleRow S Q g))

set_option maxHeartbeats 1000000 in
theorem V5_v29 (c : Dev nD) :
    V5 m ρ c main_v29 = scaleRow ((dat1 (V3 m ρ) c).arrAt 1 cfg1.N) ((dat1 (V3 m ρ) c).arrAt 2 cfg1.N)
      (m ((c : Thread nD τ).loc main_arg2)) := by
  show StableHlo.after hostOps2 (W4 m ρ c) (Proc.devRef .tc main_v29) = _
  after_results
  rw [W4_arg2 m ρ c, W4_arr m ρ c 1, W4_arr m ρ c 2]
  rfl

set_option maxHeartbeats 1000000 in
theorem V5_v32 (c : Dev nD) :
    V5 m ρ c main_v32 = shiftRow ((dat1 (V3 m ρ) c).arrAt 1 cfg1.N) ((dat1 (V3 m ρ) c).arrAt 2 cfg1.N)
      (m ((c : Thread nD τ).loc main_arg2)) (m ((c : Thread nD τ).loc main_arg3)) := by
  show StableHlo.after hostOps2 (W4 m ρ c) (Proc.devRef .tc main_v32) = _
  after_results
  rw [W4_arg2 m ρ c, W4_arg3 m ρ c, W4_arr m ρ c 1, W4_arr m ρ c 2]
  rfl

end Cert.KernelIdeal.KHost

end
-- ==== Proof.Reg2.lean ====
/-
  The third kernel region: an affine map of every row and a clamp at zero.

  The region walks an array `o` of 200000 rows and 32 columns in 8 blocks of 25000 rows.  At each block it
  multiplies every row entrywise by one row `scale` of 32 numbers, adds one row `shift`, and takes the
  maximum with zero; the block is written back at every point and the 8 blocks tile the result.  So the
  result array is, index by index, max (o[n,q] * scale[0,q] + shift[0,q]) 0.
-/
import proofs.«172280_j16088947491314_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- Row `n`, column `q` of `o` times column `q` of the scale row, plus column `q` of the shift row, clamped below at
    the zero word. -/
def affineClamp (o : FVec Ideal S200000x32 .f32) (sc sh : FVec Ideal S1x32 .f32) : FVec Ideal S200000x32 .f32 :=
  fun i => max (o i * sc (ix2 (0 : Fin 1) (⟨(i 1).val, (i 1).isLt⟩ : Fin 32)) + sh (ix2 (0 : Fin 1) (⟨(i 1).val, (i 1).isLt⟩ : Fin 32)))
    (Ideal.ofBits .f32 0x00000000#32)

/-- The body's stored value at row `p`, column `q` of a block: the block's entry times the scale row's column `q`,
    plus the shift row's, clamped at the zero word. -/
theorem pay_apply (x0 : Vec Ideal S25000x32 .f32) (x1 x2 : Vec Ideal S1x32 .f32) (p : Fin 25000) (q : Fin 32) :
    k2_pay1 (F := Ideal) x0 x1 x2 (ix2 p q)
      = max (x0 (ix2 p q) * x1 (ix2 (0 : Fin 1) q) + x2 (ix2 (0 : Fin 1) q)) (Ideal.ofBits .f32 0x00000000#32) := by
  unfold k2_pay1
  simp only [shapeCast_self]
  show max (x0 (ix2 p q) * broadcastTo S25000x32 x1 broadcasts_S1x32_S25000x32 (ix2 p q)
      + broadcastTo S25000x32 x2 broadcasts_S1x32_S25000x32 (ix2 p q)) (Ideal.ofBits .f32 0x00000000#32) = _
  rw [broadcastTo_apply x1 broadcasts_S1x32_S25000x32 (ix2 p q) (ix2 (0 : Fin 1) q)
      (fun a => by match a with | ⟨0, _⟩ => rfl | ⟨1, _⟩ => rfl),
    broadcastTo_apply x2 broadcasts_S1x32_S25000x32 (ix2 p q) (ix2 (0 : Fin 1) q)
      (fun a => by match a with | ⟨0, _⟩ => rfl | ⟨1, _⟩ => rfl)]

variable (V : (c : Dev nD) → (b : Ref sig .tc) → Buf (Elt Ideal) ((c : Thread nD τ).loc b))

/-- The printed index maps over the grid: the data windows move down the rows one block per point, the two row
    windows stay at the one block they have. -/
theorem idx_facts : ∀ t : Fin cfg2.N,
    win2_3.index t (0 : Fin 2) = t.val ∧ win2_3.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- What point `t` writes back is block `t` of the affine map of the arrays the region finds. -/
theorem flushed_eq (c : Dev nD) (t : Fin cfg2.N) :
    (dat2 V c).flushed 3 t
      = ((cfg2.win 3).blk t).view.read (Elt Ideal) (affineClamp (V c main_v17) (V c main_v29) (V c main_v32)) := by
  show (cfg2.win 3).cut (grid2.coords t) ((dat2 V c).after 3 t) = _
  rw [after2_3]
  unfold out2_3
  rw [View.canon_unit_zero hz]
  simp only [View.ld_unit_zero (S := S25000x32) hz, View.ld_unit_zero (S := S1x32) hz]
  obtain ⟨e0, e1, e2, e3, e4, e5, e6, e7⟩ := idx_facts t
  funext j
  obtain ⟨p, q, rfl⟩ : ∃ (p : Fin 25000) (q : Fin 32), j = ix2 p q := ⟨j 0, j 1, eq_ix2 j⟩
  show k2_pay1 (F := Ideal) (iblk2 V c 0 t) (iblk2 V c 1 t) (iblk2 V c 2 t) (ix2 p q)
      = affineClamp (V c main_v17) (V c main_v29) (V c main_v32) (((cfg2.win 3).blk t).view.emb (ix2 p q))
  refine (pay_apply (iblk2 V c 0 t) (iblk2 V c 1 t) (iblk2 V c 2 t) p q).trans ?_
  unfold affineClamp
  have h0 : iblk2 V c 0 t (ix2 p q) = V c main_v17 (((cfg2.win 3).blk t).view.emb (ix2 p q)) := by
    show V c main_v17 (((cfg2.win 0).blk t).view.emb (ix2 p q)) = V c main_v17 (((cfg2.win 3).blk t).view.emb (ix2 p q))
    refine congrArg (V c main_v17) (funext fun a => Fin.ext ?_)
    match a with
    | ⟨0, _⟩ =>
      show win2_0.index t (0 : Fin 2) * 25000 + 1 * p.val = win2_3.index t (0 : Fin 2) * 25000 + 1 * p.val
      omega
    | ⟨1, _⟩ =>
      show win2_0.index t (1 : Fin 2) * 32 + 1 * q.val = win2_3.index t (1 : Fin 2) * 32 + 1 * q.val
      omega
  have hq : ((((cfg2.win 3).blk t).view.emb (ix2 p q)) 1).val = q.val := by
    show win2_3.index t (1 : Fin 2) * 32 + 1 * q.val = q.val
    omega
  have h1 : iblk2 V c 1 t (ix2 (0 : Fin 1) q)
      = V c main_v29 (ix2 (0 : Fin 1) (⟨((((cfg2.win 3).blk t).view.emb (ix2 p q)) 1).val, ((((cfg2.win 3).blk t).view.emb (ix2 p q)) 1).isLt⟩ : Fin 32)) := by
    show V c main_v29 (((cfg2.win 1).blk t).view.emb (ix2 (0 : Fin 1) q)) = _
    refine congrArg (V c main_v29) (funext fun a => Fin.ext ?_)
    match a with
    | ⟨0, _⟩ =>
      show win2_1.index t (0 : Fin 2) * 1 + 1 * (0 : Fin 1).val = (0 : Fin 1).val
      omega
    | ⟨1, _⟩ =>
      show win2_1.index t (1 : Fin 2) * 32 + 1 * q.val = ((((cfg2.win 3).blk t).view.emb (ix2 p q)) 1).val
      omega
  have h2 : iblk2 V c 2 t (ix2 (0 : Fin 1) q)
      = V c main_v32 (ix2 (0 : Fin 1) (⟨((((cfg2.win 3).blk t).view.emb (ix2 p q)) 1).val, ((((cfg2.win 3).blk t).view.emb (ix2 p q)) 1).isLt⟩ : Fin 32)) := by
    show V c main_v32 (((cfg2.win 2).blk t).view.emb (ix2 (0 : Fin 1) q)) = _
    refine congrArg (V c main_v32) (funext fun a => Fin.ext ?_)
    match a with
    | ⟨0, _⟩ =>
      show win2_2.index t (0 : Fin 2) * 1 + 1 * (0 : Fin 1).val = (0 : Fin 1).val
      omega
    | ⟨1, _⟩ =>
      show win2_2.index t (1 : Fin 2) * 32 + 1 * q.val = ((((cfg2.win 3).blk t).view.emb (ix2 p q)) 1).val
      omega
  rw [h0, h1, h2]

/-- An index of the result array is in point `t`'s block iff each coordinate is in the block's range on its axis. -/
theorem mem_blk (t : Fin cfg2.N) (i : S200000x32.Idx) :
    i ∈ ((cfg2.win 3).blk t).view.set ↔ ∀ a : Fin 2, win2_3.index t a * S25000x32.size a ≤ (i a).val
      ∧ (i a).val < win2_3.index t a * S25000x32.size a + S25000x32.size a := by
  show i ∈ ((View.whole main_v33).slice (win2_3.rect t)).set ↔ _
  rw [View.set_slice_whole, Rect.mem_set_unit]
  exact Iff.rfl

/-- Row `n` is in the block of the point `n / 25000`, and every point writes its block back: the blocks cover. -/
theorem cover (i : S200000x32.Idx) :
    ∃ t : Fin cfg2.N, (cfg2.win 3).flush t = true ∧ i ∈ ((cfg2.win 3).blk t).view.set := by
  have hi0 : (i 0).val < 200000 := (i 0).isLt
  have hi1 : (i 1).val < 32 := (i 1).isLt
  have hN : cfg2.N = 8 := N_2
  have hlt : (i 0).val / 25000 < cfg2.N := by rw [hN]; omega
  obtain ⟨e0, e1, -⟩ := idx_facts ⟨(i 0).val / 25000, hlt⟩
  refine ⟨⟨(i 0).val / 25000, hlt⟩, flush2_3 _, ?_⟩
  rw [mem_blk]
  intro a
  match a with
  | ⟨0, _⟩ =>
    show win2_3.index ⟨(i 0).val / 25000, hlt⟩ (0 : Fin 2) * 25000 ≤ (i 0).val
      ∧ (i 0).val < win2_3.index ⟨(i 0).val / 25000, hlt⟩ (0 : Fin 2) * 25000 + 25000
    rw [e0]
    show (i 0).val / 25000 * 25000 ≤ (i 0).val ∧ (i 0).val < (i 0).val / 25000 * 25000 + 25000
    omega
  | ⟨1, _⟩ =>
    show win2_3.index ⟨(i 0).val / 25000, hlt⟩ (1 : Fin 2) * 32 ≤ (i 1).val
      ∧ (i 1).val < win2_3.index ⟨(i 0).val / 25000, hlt⟩ (1 : Fin 2) * 32 + 32
    omega

/-- THE RESULT ARRAY after the region: the affine map, clamped, of the arrays the region finds. -/
theorem final (c : Dev nD) :
    (dat2 V c).arrAt 3 cfg2.N = affineClamp (V c main_v17) (V c main_v29) (V c main_v32) :=
  (dat2 V c).arrAt_eq_of_cover 3 _ (fun t _ => flushed_eq V c t) (cover)

end Cert.KernelIdeal.Reg2

end
-- ==== Proof.LibRealEntries.lean ====
/-
  Reusable lemmas: arrays over the extended reals all of whose entries are real numbers.

  An extended real is either a real number or one of the two infinities.  Sums and products of real numbers are real,
  the cosine and the sine of a real number are real, a quotient of a real number by a non-zero real number is real,
  and the 32-bit float patterns whose exponent field is not all ones denote real numbers.  The operations that only
  re-index an array (a broadcast along named axes, a reshape, a transpose, a concatenation) read each result entry
  from an operand entry, so they carry "every entry is real" from the operands to the result; so do the entrywise
  product, negation, cosine, sine and quotient, and a matrix product (a finite sum of products).

  The last part is the one algebraic law the file is for: for matrices with real entries the product is associative,
  entry by entry, as an identity between extended reals — (A·B)·C = A·(B·C).  Over the extended reals this needs the
  entries to be real: with infinities a product does not distribute over a sum.
-/
import Idealize.ShloMosaic.PureOps.Ideal.Laws
import Idealize.ShloMosaic.Lib.ValueIdx

noncomputable section

namespace Cert.RealEntries

open Idealize.ShloMosaic Idealize.ShloMosaic.ValueIdx

/-! ## Real numbers among the extended reals -/

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

theorem IsR.cos {x : EReal} (hx : IsR x) : IsR (Ideal.cos x) := by
  obtain ⟨a, rfl⟩ := hx; exact ⟨Real.cos a, rfl⟩

theorem IsR.sin {x : EReal} (hx : IsR x) : IsR (Ideal.sin x) := by
  obtain ⟨a, rfl⟩ := hx; exact ⟨Real.sin a, rfl⟩

/-- A real number divided by a non-zero real number. -/
theorem IsR.div {x y : EReal} (hx : IsR x) {b : ℝ} (hy : y = (b : EReal)) (hb : b ≠ 0) : IsR (Ideal.div x y) := by
  subst hy
  rw [Ideal.div_coe hb]
  exact hx.mul (IsR.coe _)

/-- A 32-bit float pattern whose exponent field is not all ones denotes a real number. -/
theorem isR_ofBits_f32 (w : BitVec 32) (h : (w.extractLsb' 23 8).toNat ≠ 255) : IsR (Ideal.ofBits .f32 w) := by
  show IsR (Ideal.ieee 8 23 w)
  unfold Ideal.ieee
  dsimp only
  rw [if_neg (by norm_num; exact h)]
  split_ifs <;> exact ⟨_, rfl⟩

/-- The pattern of 2.0 denotes the real number 2. -/
theorem ofBits_two : Ideal.ofBits .f32 0x40000000#32 = ((2 : ℝ) : EReal) := by
  simp [Ideal.ofBits, Ideal.ieee, -EReal.coe_mul]; norm_num

/-! ## Arrays of real numbers -/

variable {s t : Shape} {φ : FTy}

/-- Every entry of the array is a real number. -/
def AllReal (x : FVec Ideal s φ) : Prop := ∀ i, IsR (x i)

/-- A broadcast along named axes reads every entry from the operand. -/
theorem AllReal.of_broadcastInDim {x : FVec Ideal s φ} (hx : AllReal x) (dims : Fin s.rank → Fin t.rank)
    (h : s.BroadcastsInDim t dims) : AllReal (φ := φ) (broadcastInDim t dims h x) := by
  intro j; unfold Idealize.ShloMosaic.broadcastInDim; exact hx _

/-- A reshape reads every entry from the operand. -/
theorem AllReal.of_shapeCast {x : FVec Ideal s φ} (hx : AllReal x) (h : s.ShapeCasts t) :
    AllReal (φ := φ) (shapeCast t x h) := by
  intro j; unfold Idealize.ShloMosaic.shapeCast; exact hx _

/-- A transpose reads every entry from the operand. -/
theorem AllReal.of_transpose {x : FVec Ideal s φ} (hx : AllReal x) (perm : List (Fin s.rank)) (h : s.Transposes perm t) :
    AllReal (φ := φ) (transpose t perm x h) := by
  intro j; unfold Idealize.ShloMosaic.transpose; exact hx _

/-- A concatenation reads every entry from one of the pieces. -/
theorem AllReal.of_concatenate (a : Fin t.rank) (xs : List ((s : Shape) × (s.Idx → EReal)))
    (h : Shape.Concatenates (xs.map (·.1)) t a) (hxs : ∀ p ∈ xs, ∀ i, IsR (p.2 i)) :
    AllReal (φ := φ) (concatenate t a xs h) := by
  intro j; unfold Idealize.ShloMosaic.concatenate; dsimp only
  exact hxs _ (List.getElem_mem _) _

/-- A concatenation of two pieces. -/
theorem AllReal.of_concatenate₂ {s₁ s₂ : Shape} (a : Fin t.rank) {x : FVec Ideal s₁ φ} {y : FVec Ideal s₂ φ}
    (hx : AllReal x) (hy : AllReal y) (h : Shape.Concatenates [s₁, s₂] t a) :
    AllReal (φ := φ) (concatenate t a [⟨s₁, x⟩, ⟨s₂, y⟩] h) :=
  AllReal.of_concatenate a [⟨s₁, x⟩, ⟨s₂, y⟩] h fun p hp => by
    simp only [List.mem_cons, List.not_mem_nil, or_false] at hp
    rcases hp with rfl | rfl
    · exact hx
    · exact hy

/-- The entrywise product. -/
theorem AllReal.of_mulf {x y : FVec Ideal s φ} (hx : AllReal x) (hy : AllReal y) : AllReal (mulf x y) :=
  fun i => (hx i).mul (hy i)

/-- The entrywise negation on the host. -/
theorem AllReal.of_hostNegf {x : FVec Ideal s φ} (hx : AllReal x) : AllReal (Host.negf x) :=
  fun i => (hx i).neg

/-- The entrywise cosine on the host. -/
theorem AllReal.of_hostCos {x : FVec Ideal s φ} (hx : AllReal x) : AllReal (Host.cos x) :=
  fun i => (hx i).cos

/-- The entrywise sine on the host. -/
theorem AllReal.of_hostSin {x : FVec Ideal s φ} (hx : AllReal x) : AllReal (Host.sin x) :=
  fun i => (hx i).sin

/-- The entrywise quotient on the host by the splat of the float 2.0. -/
theorem AllReal.of_hostDivTwo {x : FVec Ideal s .f32} (hx : AllReal x) :
    AllReal (Host.divf x (constant (F := Ideal) s .f32 0x40000000#32)) :=
  fun i => (hx i).div ofBits_two (by norm_num)

/-- A table of 32-bit float patterns none of whose exponent fields is all ones. -/
theorem AllReal.ofTable (f : s.Idx → BitVec 32) (h : ∀ i, ((f i).extractLsb' 23 8).toNat ≠ 255) :
    AllReal (φ := .f32) (fun i => (FloatOps.ofBits (F := Ideal) .f32 (f i) : Ideal .f32)) :=
  fun i => isR_ofBits_f32 _ (h i)

/-! ## Matrices of real numbers -/

variable {M K N L : Nat}

/-- A matrix product of two matrices of real numbers, read at each entry as the sum over the inner index, has real
    entries. -/
theorem allReal_of_sum {x : FVec Ideal ⟨2, ![M, N]⟩ φ} (a : Fin M → Fin K → EReal) (b : Fin K → Fin N → EReal)
    (ha : ∀ p k, IsR (a p k)) (hb : ∀ k q, IsR (b k q))
    (hx : ∀ p q, x (ix2 p q) = ∑ k : Fin K, a p k * b k q) : AllReal x := by
  intro j
  obtain ⟨p, q, rfl⟩ : ∃ (p : Fin M) (q : Fin N), j = ix2 p q := ⟨j 0, j 1, eq_ix2 j⟩
  rw [hx]
  exact IsR.sum _ _ fun k _ => (ha _ k).mul (hb k _)

/-- The coercion from the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- ASSOCIATIVITY of the product of matrices of real numbers, entry by entry, over the extended reals:
    Σ_j (Σ_i A[p,i]·B[i,j])·C[j,q] = Σ_i A[p,i]·(Σ_j B[i,j]·C[j,q]). -/
theorem matmul_assoc (A : Fin M → Fin K → EReal) (B : Fin K → Fin L → EReal) (C : Fin L → Fin N → EReal)
    (hA : ∀ p i, IsR (A p i)) (hB : ∀ i j, IsR (B i j)) (hC : ∀ j q, IsR (C j q)) (p : Fin M) (q : Fin N) :
    ∑ j : Fin L, (∑ i : Fin K, A p i * B i j) * C j q = ∑ i : Fin K, A p i * ∑ j : Fin L, B i j * C j q := by
  choose a ha using hA
  choose b hb using hB
  choose c hc using hC
  simp only [ha, hb, hc, ← EReal.coe_mul, ← coe_sum]
  rw [EReal.coe_eq_coe_iff]
  simp only [Finset.sum_mul, Finset.mul_sum]
  rw [Finset.sum_comm]
  exact Finset.sum_congr rfl fun i _ => Finset.sum_congr rfl fun j _ => mul_assoc _ _ _

end Cert.RealEntries

end
-- ==== Proof.BnAlgebra.lean ====
import proofs.«172280_j16088947491314_1_alg».proof.Proof.LibRealEntries

/-!
# One column of a training-mode batch normalisation, in two arrangements

Over the extended reals, a column `o` of `N` rows is normalised with affine
parameters `g`, `b` and a positive `e` under the square root, then clamped
below at `z`.  One arrangement computes the variance as the mean of squares minus
the square of the mean and folds the mean into a per-column scale and shift; the
other computes the variance as the mean of the squared deviations and normalises
each entry directly.

Both are the same function as soon as every input is a real number: over the reals,
`Σo²/N − (Σo/N)² = Σ(o − μ)²/N ≥ 0`, so the argument of the reciprocal square
root is positive and the reciprocal square root is the real `(√·)⁻¹`; and
`o·(g·r) + (b − μ·(g·r)) = g·(o − μ)·r + b` by distributivity.  Neither law
survives an infinity (a difference of two infinities), which is why realness is
a hypothesis.
-/

noncomputable section

namespace Cert.BnAlgebra
open Idealize.ShloMosaic Cert.RealEntries

/-- The reciprocal square root of a positive real is the real `(√r)⁻¹`. -/
theorem rsqrt_of_pos {r : ℝ} (h : 0 < r) :
    Ideal.rsqrt (r : EReal) = (((Real.sqrt r)⁻¹ : ℝ) : EReal) := by
  rw [Ideal.rsqrt_coe, if_neg (not_lt.mpr h.le), if_neg h.ne']

variable {ι : Type} [Fintype ι]

/-- The population variance in its two forms: with `μ = Σa / N`,
    `Σ(a − μ)² / N = Σa² / N − μ²`. -/
theorem sum_sq_centered (a : ι → ℝ) (hpos : 0 < Fintype.card ι) :
    (∑ i, (a i - (∑ j, a j) / (Fintype.card ι : ℝ)) * (a i - (∑ j, a j) / (Fintype.card ι : ℝ)))
        / (Fintype.card ι : ℝ)
      = (∑ i, a i * a i) / (Fintype.card ι : ℝ)
        - (∑ j, a j) / (Fintype.card ι : ℝ) * ((∑ j, a j) / (Fintype.card ι : ℝ)) := by
  have hN0 : (Fintype.card ι : ℝ) ≠ 0 := by exact_mod_cast hpos.ne'
  set N : ℝ := (Fintype.card ι : ℝ) with hN
  set μ : ℝ := (∑ j, a j) / N with hμ
  have hs : ∑ j, a j = N * μ := by rw [hμ]; field_simp
  have h1 : ∀ i, (a i - μ) * (a i - μ) = a i * a i - 2 * μ * a i + μ * μ := fun i => by ring
  simp only [h1]
  rw [Finset.sum_add_distrib, Finset.sum_sub_distrib, ← Finset.mul_sum, Finset.sum_const,
    Finset.card_univ, nsmul_eq_mul, ← hN, hs]
  field_simp
  ring

def kernelSide (o : ι → EReal) (g b Nw e z : EReal) (n : ι) : EReal :=
  max (o n * (g * Ideal.rsqrt ((Ideal.div (∑ i, o i * o i) Nw - Ideal.div (∑ i, o i) Nw * Ideal.div (∑ i, o i) Nw) + e))
        + (b - Ideal.div (∑ i, o i) Nw * (g * Ideal.rsqrt ((Ideal.div (∑ i, o i * o i) Nw - Ideal.div (∑ i, o i) Nw * Ideal.div (∑ i, o i) Nw) + e)))) z

def referenceSide (o : ι → EReal) (g b Nw e z : EReal) (n : ι) : EReal :=
  max (g * (o n - Ideal.div (∑ i, o i) Nw) * Ideal.rsqrt (Ideal.div (∑ i, (o i - Ideal.div (∑ j, o j) Nw) * (o i - Ideal.div (∑ j, o j) Nw)) Nw + e) + b) z

theorem kernelSide_eq_referenceSide (o : ι → EReal) (ho : ∀ i, IsR (o i)) (g b : EReal) (hg : IsR g) (hb : IsR b)
    (Nw : EReal) (hN : Nw = ((Fintype.card ι : ℝ) : EReal)) (hpos : 0 < Fintype.card ι)
    (e : EReal) (he : ∃ r : ℝ, 0 < r ∧ e = (r : EReal)) (z : EReal) (n : ι) :
    kernelSide o g b Nw e z n = referenceSide o g b Nw e z n := by
  choose a ha using ho
  obtain ⟨γ, rfl⟩ := hg
  obtain ⟨β, rfl⟩ := hb
  obtain ⟨ε, hε, rfl⟩ := he
  subst hN
  obtain rfl : o = fun i => (a i : EReal) := funext ha
  have hN0 : (Fintype.card ι : ℝ) ≠ 0 := by exact_mod_cast hpos.ne'
  -- the mean, the mean of squares and the mean of squared deviations are real numbers
  have hmean : Ideal.div (∑ i, (a i : EReal)) ((Fintype.card ι : ℝ) : EReal)
      = (((∑ i, a i) / (Fintype.card ι : ℝ) : ℝ) : EReal) := by
    rw [Ideal.div_coe hN0, ← coe_sum, ← EReal.coe_mul, mul_one_div]
  have hsq : Ideal.div (∑ i, (a i : EReal) * (a i : EReal)) ((Fintype.card ι : ℝ) : EReal)
      = (((∑ i, a i * a i) / (Fintype.card ι : ℝ) : ℝ) : EReal) := by
    simp only [← EReal.coe_mul]
    rw [Ideal.div_coe hN0, ← coe_sum, ← EReal.coe_mul, mul_one_div]
  have hcen : Ideal.div (∑ i, ((a i : EReal) - (((∑ j, a j) / (Fintype.card ι : ℝ) : ℝ) : EReal))
        * ((a i : EReal) - (((∑ j, a j) / (Fintype.card ι : ℝ) : ℝ) : EReal))) ((Fintype.card ι : ℝ) : EReal)
      = (((∑ i, (a i - (∑ j, a j) / (Fintype.card ι : ℝ)) * (a i - (∑ j, a j) / (Fintype.card ι : ℝ)))
          / (Fintype.card ι : ℝ) : ℝ) : EReal) := by
    simp only [← EReal.coe_sub, ← EReal.coe_mul]
    rw [Ideal.div_coe hN0, ← coe_sum, ← EReal.coe_mul, mul_one_div]
  have hvar := sum_sq_centered a hpos
  have hnonneg : 0 ≤ (∑ i, (a i - (∑ j, a j) / (Fintype.card ι : ℝ)) * (a i - (∑ j, a j) / (Fintype.card ι : ℝ)))
          / (Fintype.card ι : ℝ) :=
    div_nonneg (Finset.sum_nonneg (fun i _ => mul_self_nonneg _)) (Nat.cast_nonneg _)
  unfold kernelSide referenceSide
  simp only [hmean, hsq, hcen]
  rw [← EReal.coe_mul, ← EReal.coe_sub, ← hvar, ← EReal.coe_add, rsqrt_of_pos (by linarith)]
  refine congrArg (fun t => max t z) ?_
  norm_cast
  ring

/-- The word `0x48435000` has sign `0`, biased exponent `144` and mantissa `0x435000`:
    `(2^23 + 4411392) · 2^(144 − 127 − 23) = 12800000 / 64 = 200000`. -/
theorem ofBits_200000 : Ideal.ofBits .f32 0x48435000#32 = ((200000 : ℝ) : EReal) := by
  simp [Ideal.ofBits, Ideal.ieee, -EReal.coe_mul]
  norm_num

/-- The word `0x3727C5AC` has sign `0`, biased exponent `110` and mantissa `0x27C5AC`:
    `(2^23 + 2606508) · 2^(110 − 127 − 23) = 10995116 · 2^(−40)`, a positive real. -/
theorem ofBits_eps_pos : ∃ r : ℝ, 0 < r ∧ Ideal.ofBits .f32 0x3727C5AC#32 = (r : EReal) := by
  refine ⟨(10995116 : ℝ) * (2 : ℝ) ^ (-40 : ℤ), by positivity, ?_⟩
  simp [Ideal.ofBits, Ideal.ieee, -EReal.coe_mul]

end Cert.BnAlgebra
-- ==== Proof.KValue.lean ====
/-
  The idealized kernel's result, entry by entry.

  The last region leaves max (o[n,q] * scale[0,q] + shift[0,q]) 0, where o is the scattered array, and the host
  operations before it make scale = gamma * rsqrt (Q / N - (S / N) * (S / N) + eps) and shift = beta - (S / N) * scale from the
  column sums S and the column sums of squares Q which the second region leaves.  With S[0,q] the sum of column q
  of o and Q[0,q] the sum of its squares, entry (n,q) of the result is the batch normalisation of column q of o
  in the arrangement "scale and shift first", clamped at zero.
-/
import proofs.«172280_j16088947491314_1_alg».proof.Proof.KHost
import proofs.«172280_j16088947491314_1_alg».proof.Proof.Reg2
import proofs.«172280_j16088947491314_1_alg».proof.Proof.BnAlgebra

set_option maxRecDepth 16384

noncomputable section

namespace Cert.KernelIdeal.KValue

open Cert.KernelIdeal Cert.KernelIdeal.Gen Cert.KernelIdeal.KHost
open Idealize.ShloMosaic Idealize.ShloMosaic.TcCoe Idealize.ShloMosaic.ValueIdx Idealize.SL.Sem
open Idealize.ShloMosaic.Pipeline (Dat)

/-- A vector of 32 numbers viewed as one row reads, at (0, q), the vector's entry q. -/
theorem row_of_vector (g : FVec Ideal S32 .f32) (q : Fin 32) :
    shapeCast S1x32 g shapeCasts_S32_S1x32 (ix2 (0 : Fin 1) q) = g (ix1 q) := by
  refine shapeCast_apply g shapeCasts_S32_S1x32 (ix2 (0 : Fin 1) q) (ix1 q) ?_
  rw [Shape.rowMajor_val_one, Shape.rowMajor_val_two]
  show q.val = (0 : Fin 1).val * 32 + q.val
  simp

/-- The scale row at column q. -/
theorem scaleRow_apply (S Q : FVec Ideal S1x32 .f32) (g : FVec Ideal S32 .f32) (q : Fin 32) :
    scaleRow S Q g (ix2 (0 : Fin 1) q)
      = g (ix1 q) * Ideal.rsqrt ((Ideal.div (Q (ix2 (0 : Fin 1) q)) (Ideal.ofBits .f32 0x48435000#32)
          - Ideal.div (S (ix2 (0 : Fin 1) q)) (Ideal.ofBits .f32 0x48435000#32)
            * Ideal.div (S (ix2 (0 : Fin 1) q)) (Ideal.ofBits .f32 0x48435000#32))
          + Ideal.ofBits .f32 0x3727C5AC#32) := by
  rw [← row_of_vector g q]
  rfl

/-- The shift row at column q. -/
theorem shiftRow_apply (S Q : FVec Ideal S1x32 .f32) (g b : FVec Ideal S32 .f32) (q : Fin 32) :
    shiftRow S Q g b (ix2 (0 : Fin 1) q)
      = b (ix1 q) - Ideal.div (S (ix2 (0 : Fin 1) q)) (Ideal.ofBits .f32 0x48435000#32) * scaleRow S Q g (ix2 (0 : Fin 1) q) := by
  rw [← row_of_vector b q]
  rfl

variable (m : (ℓ : Loc nD τ sig) → Buf (Elt Ideal) ℓ) (ρ : Dev nD → PrngReg)

/-- THE KERNEL'S RESULT at row n, column q.  Name the scattered array `o`, the two rows the second region leaves
    `S` and `Q`, and gamma, beta `g`, `b`; when `S` and `Q` hold at column q the sum of column q of `o` and the sum of
    its squares, the result is the batch normalisation of that column, scale and shift first, clamped at the
    zero word. -/
theorem value_apply (c : Dev nD) (n : Fin 200000) (q : Fin 32)
    (o : FVec Ideal S200000x32 .f32) (ho : V3 m ρ c main_v17 = o)
    (S Q : FVec Ideal S1x32 .f32) (hS : (dat1 (V3 m ρ) c).arrAt 1 cfg1.N = S) (hQ : (dat1 (V3 m ρ) c).arrAt 2 cfg1.N = Q)
    (g b : FVec Ideal S32 .f32) (hg : m ((c : Thread nD τ).loc main_arg2) = g) (hb : m ((c : Thread nD τ).loc main_arg3) = b)
    (hSq : S (ix2 (0 : Fin 1) q) = ∑ k : Fin 200000, o (ix2 k q))
    (hQq : Q (ix2 (0 : Fin 1) q) = ∑ k : Fin 200000, o (ix2 k q) * o (ix2 k q)) :
    (W6 m ρ c (Proc.devRef .tc main_v33) : FVec Ideal S200000x32 .f32) (ix2 n q)
      = Cert.BnAlgebra.kernelSide (fun k : Fin 200000 => o (ix2 k q)) (g (ix1 q)) (b (ix1 q))
          (Ideal.ofBits .f32 0x48435000#32) (Ideal.ofBits .f32 0x3727C5AC#32) (Ideal.ofBits .f32 0x00000000#32) n := by
  have hW : (W6 m ρ c (Proc.devRef .tc main_v33) : FVec Ideal S200000x32 .f32)
      = Reg2.affineClamp (V5 m ρ c main_v17) (V5 m ρ c main_v29) (V5 m ρ c main_v32) :=
    (W6_arr m ρ c 3).trans (Reg2.final (V5 m ρ) c)
  have e17 : (V5 m ρ c main_v17 : FVec Ideal S200000x32 .f32) = o := (V5_v17 m ρ c).trans ho
  have e29 : (V5 m ρ c main_v29 : FVec Ideal S1x32 .f32) = scaleRow S Q g := by rw [V5_v29, hS, hQ, hg]
  have e32 : (V5 m ρ c main_v32 : FVec Ideal S1x32 .f32) = shiftRow S Q g b := by rw [V5_v32, hS, hQ, hg, hb]
  rw [hW, e17, e29, e32]
  show max (o (ix2 n q) * scaleRow S Q g (ix2 (0 : Fin 1) q) + shiftRow S Q g b (ix2 (0 : Fin 1) q))
      (Ideal.ofBits .f32 0x00000000#32) = _
  rw [shiftRow_apply, scaleRow_apply, hSq, hQq]
  rfl

end Cert.KernelIdeal.KValue

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.Reg0.lean ====
/-
  THE FIRST REGION OF THE IDEALIZED KERNEL: THE PER-OFFSET PRODUCT OF THE SPARSE CONVOLUTION.

  The region multiplies, for each of the 27 kernel offsets b, the gathered rows xg[b] : [100000, 32] by the offset's
  weight matrix W[b] : [32, 32]:

      msgs[b, m, d] = Σ_{k < 32} xg[b, m, k] · W[b, k, d].

  It runs over a grid of 27 × 4 points.  Point t = (b, mm) loads the block of 25000 rows xg[b, 25000·mm … 25000·mm +
  24999, :] and the whole matrix W[b], drops the leading unit axis of both, rounds both to a narrower float format (over
  the extended reals a rounding is the identity), multiplies them on the matrix unit into a zero accumulator (over the
  extended reals 0 + Σ_k L[p, k] · R[k, q], and 0 + x = x), puts the unit axis back, and writes the block back to
  msgs[b, 25000·mm …, :].

  The file proves: the payload at an entry is the inner product of a row of its first operand with a column of its
  second; what point t writes back is block t of the product array `prod`; every entry of the array lies in the block
  of the point (b, m / 25000); hence the array ends holding `prod` of the arrays the region finds.
-/
import proofs.«172280_j16088947491314_1_alg».proof.Proof.Gen.KernelIdeal.Frame
import proofs.«172280_j16088947491314_1_alg».proof.Proof.LibMatmulNN
import Idealize.ShloMosaic.Lib.Pipeline.Value
import Idealize.ShloMosaic.Lib.ValueIdx
import Idealize.ShloMosaic.PureOps.Ideal.Laws

noncomputable section

open scoped BigOperators

namespace Cert.KernelIdeal.Reg0

open Cert.KernelIdeal Cert.KernelIdeal.Gen Idealize.ShloMosaic Idealize.ShloMosaic.ValueIdx Idealize.ShloMosaic.TcCoe

/-! ## The product array -/

/-- the product's array, index by index -/
def prod (xg : S27x100000x32.Idx → EReal) (W : S27x32x32.Idx → EReal) : S27x100000x32.Idx → EReal :=
  fun i => ∑ k : Fin 32, xg (ix3 (i 0) (i 1) k) * W (ix3 (i 0) k (i 2))

/-! ## The payload at an entry -/

/-- The body's payload at the entry (0, p, q) of its block: the inner product of row p of the loaded block of rows
    with column q of the loaded weight matrix.  (Dropping and restoring the unit axis keeps the row-major position;
    the rounding is the identity; the matrix product into zeros is the sum over the contracted axis.) -/
theorem pay_apply (x0 : Vec Ideal S1x25000x32 .f32) (x1 : Vec Ideal S1x32x32 .f32) (p : Fin 25000) (q : Fin 32) :
    k0_pay1 (F := Ideal) x0 x1 (ix3 (0 : Fin 1) p q)
      = ∑ k : Fin 32, x0 (ix3 (0 : Fin 1) p k) * x1 (ix3 (0 : Fin 1) k q) := by
  unfold k0_pay1
  refine (shapeCast_apply _ _ (ix3 (0 : Fin 1) p q) (ix2 p q) ?_).trans ?_
  · rw [Shape.rowMajor_val_two, Shape.rowMajor_val_three]
    show p.val * 32 + q.val = (0 * 25000 + p.val) * 32 + q.val
    omega
  refine (Cert.MatmulNN.matmul_zero_apply dot_S25000x32_S32x32_S25000x32_1_0_0_1_n_n rfl none _ _ p q).trans ?_
  refine Finset.sum_congr rfl fun k _ => ?_
  rw [truncf_apply, truncf_apply]
  rw [shapeCast_apply _ _ (ix2 p k) (ix3 (0 : Fin 1) p k) (by
        rw [Shape.rowMajor_val_two, Shape.rowMajor_val_three]
        show (0 * 25000 + p.val) * 32 + k.val = p.val * 32 + k.val
        omega),
    shapeCast_apply _ _ (ix2 k q) (ix3 (0 : Fin 1) k q) (by
        rw [Shape.rowMajor_val_two, Shape.rowMajor_val_three]
        show (0 * 32 + k.val) * 32 + q.val = k.val * 32 + q.val
        omega)]

/-- The same at any index j of the block (its leading coordinate is 0, the axis having extent one). -/
theorem pay_blk (x0 : Vec Ideal S1x25000x32 .f32) (x1 : Vec Ideal S1x32x32 .f32) (j : S1x25000x32.Idx) :
    k0_pay1 (F := Ideal) x0 x1 j
      = ∑ k : Fin 32, x0 (ix3 (0 : Fin 1) (j 1) k) * x1 (ix3 (0 : Fin 1) k (j 2)) := by
  have hj : j = ix3 (0 : Fin 1) (j 1) (j 2) := by
    funext a
    match a with
    | ⟨0, _⟩ =>
      have h : (j 0).val < 1 := (j 0).isLt
      exact Fin.ext (show (j 0).val = 0 by omega)
    | ⟨1, _⟩ => rfl
    | ⟨2, _⟩ => rfl
  exact (congrArg (k0_pay1 (F := Ideal) x0 x1) hj).trans (pay_apply x0 x1 (j 1) (j 2))

/-! ## The blocks -/

variable (V : (c : Dev nD) → (b : Ref sig .tc) → Buf (Elt Ideal) ((c : Thread nD τ).loc b))

theorem hz : (![0, 0, 0] : Fin 3 → Nat) = fun _ => 0 := funext fun a => by fin_cases a <;> rfl

/-- The index maps over the grid: at point t the output block and the block of rows sit at block index
    (t / 4, t mod 4, 0), the weight matrix at (t / 4, 0, 0). -/
theorem idx_facts : ∀ t : Fin cfg0.N,
    win0_2.index t (0 : Fin 3) = t.val / 4 ∧ win0_2.index t (1 : Fin 3) = t.val % 4 ∧ win0_2.index t (2 : Fin 3) = 0
    ∧ win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0 :=
  (by decide +kernel : ∀ t : Fin grid0.N, _)

/-- The block of rows point t loads, read at y, is the array at (t / 4, 25000 · (t mod 4) + y₁, y₂). -/
theorem read_rows (c : Dev nD) (t : Fin cfg0.N) (y : S1x25000x32.Idx) (i : S27x100000x32.Idx)
    (h0 : (i 0).val = t.val / 4) (h1 : (i 1).val = t.val % 4 * 25000 + (y 1).val) (h2 : (i 2).val = (y 2).val) :
    iblk0 (F := Ideal) V c 0 t y = V c main_v6 i := by
  show V c main_v6 (((cfg0.win 0).blk t).view.emb y) = V c main_v6 i
  obtain ⟨-, -, -, e0, e1, e2, -⟩ := idx_facts t
  refine congrArg (V c main_v6) (funext fun a => Fin.ext ?_)
  match a with
  | ⟨0, _⟩ =>
    show win0_0.index t (0 : Fin 3) * 1 + 1 * (y 0).val = (i 0).val
    have hy : (y 0).val < 1 := (y 0).isLt
    omega
  | ⟨1, _⟩ =>
    show win0_0.index t (1 : Fin 3) * 25000 + 1 * (y 1).val = (i 1).val
    omega
  | ⟨2, _⟩ =>
    show win0_0.index t (2 : Fin 3) * 32 + 1 * (y 2).val = (i 2).val
    omega

/-- The weight matrix point t loads, read at y, is the array at (t / 4, y₁, y₂). -/
theorem read_weights (c : Dev nD) (t : Fin cfg0.N) (y : S1x32x32.Idx) (i : S27x32x32.Idx)
    (h0 : (i 0).val = t.val / 4) (h1 : (i 1).val = (y 1).val) (h2 : (i 2).val = (y 2).val) :
    iblk0 (F := Ideal) V c 1 t y = V c main_arg1 i := by
  show V c main_arg1 (((cfg0.win 1).blk t).view.emb y) = V c main_arg1 i
  obtain ⟨-, -, -, -, -, -, e0, e1, e2⟩ := idx_facts t
  refine congrArg (V c main_arg1) (funext fun a => Fin.ext ?_)
  match a with
  | ⟨0, _⟩ =>
    show win0_1.index t (0 : Fin 3) * 1 + 1 * (y 0).val = (i 0).val
    have hy : (y 0).val < 1 := (y 0).isLt
    omega
  | ⟨1, _⟩ =>
    show win0_1.index t (1 : Fin 3) * 32 + 1 * (y 1).val = (i 1).val
    omega
  | ⟨2, _⟩ =>
    show win0_1.index t (2 : Fin 3) * 32 + 1 * (y 2).val = (i 2).val
    omega

/-- The coordinates of the array index under the entry j of point t's output block. -/
theorem emb_out (t : Fin cfg0.N) (j : S1x25000x32.Idx) :
    ((((cfg0.win 2).blk t).view.emb j) 0).val = t.val / 4
    ∧ ((((cfg0.win 2).blk t).view.emb j) 1).val = t.val % 4 * 25000 + (j 1).val
    ∧ ((((cfg0.win 2).blk t).view.emb j) 2).val = (j 2).val := by
  obtain ⟨e0, e1, e2, -⟩ := idx_facts t
  have hy : (j 0).val < 1 := (j 0).isLt
  refine ⟨?_, ?_, ?_⟩
  · show win0_2.index t (0 : Fin 3) * 1 + 1 * (j 0).val = _
    omega
  · show win0_2.index t (1 : Fin 3) * 25000 + 1 * (j 1).val = _
    omega
  · show win0_2.index t (2 : Fin 3) * 32 + 1 * (j 2).val = _
    omega

/-- WHAT POINT t WRITES BACK is block t of the product of the arrays as the region finds them. -/
theorem flushed_eq (c : Dev nD) (t : Fin cfg0.N) :
    (dat0 (F := Ideal) V c).flushed 2 t
      = ((cfg0.win 2).blk t).view.read (Elt Ideal) (prod (V c main_v6) (V c main_arg1)) := by
  show (cfg0.win 2).cut (grid0.coords t) ((dat0 V c).after 2 t) = _
  rw [after0_2]
  unfold out0_2
  rw [View.canon_unit_zero hz]
  simp only [View.ld_unit_zero (S := S1x25000x32) hz, View.ld_unit_zero (S := S1x32x32) hz]
  funext j
  show k0_pay1 (F := Ideal) (iblk0 V c 0 t) (iblk0 V c 1 t) j
    = prod (V c main_v6) (V c main_arg1) (((cfg0.win 2).blk t).view.emb j)
  refine (pay_blk _ _ j).trans ?_
  obtain ⟨g0, g1, g2⟩ := emb_out t j
  unfold prod
  refine Finset.sum_congr rfl fun k _ => ?_
  rw [read_rows V c t (ix3 (0 : Fin 1) (j 1) k) (ix3 ((((cfg0.win 2).blk t).view.emb j) 0) ((((cfg0.win 2).blk t).view.emb j) 1) k) g0 g1 rfl,
    read_weights V c t (ix3 (0 : Fin 1) k (j 2)) (ix3 ((((cfg0.win 2).blk t).view.emb j) 0) k ((((cfg0.win 2).blk t).view.emb j) 2)) g0 rfl g2]

/-! ## From blocks to the array -/

/-- An index of the array is in point t's block iff each coordinate is in the block's range on its axis. -/
theorem mem_blk (t : Fin cfg0.N) (i : S27x100000x32.Idx) :
    i ∈ ((cfg0.win 2).blk t).view.set ↔ ∀ a : Fin 3, win0_2.index t a * S1x25000x32.size a ≤ (i a).val
      ∧ (i a).val < win0_2.index t a * S1x25000x32.size a + S1x25000x32.size a := by
  show i ∈ ((View.whole main_v7).slice (win0_2.rect t)).set ↔ _
  rw [View.set_slice_whole, Rect.mem_set_unit]
  exact Iff.rfl

/-- The blocks tile the array: the entry (b, m, d) is in the block of the point 4·b + m / 25000, and every point writes
    its block back. -/
theorem cover (i : S27x100000x32.Idx) :
    ∃ t : Fin cfg0.N, (cfg0.win 2).flush t = true ∧ i ∈ ((cfg0.win 2).blk t).view.set := by
  have hi0 : (i 0).val < 27 := (i 0).isLt
  have hi1 : (i 1).val < 100000 := (i 1).isLt
  have hi2 : (i 2).val < 32 := (i 2).isLt
  obtain ⟨t, ht⟩ : ∃ t : Fin cfg0.N, t.val = 4 * (i 0).val + (i 1).val / 25000 :=
    ⟨⟨4 * (i 0).val + (i 1).val / 25000, lt_of_lt_of_eq (by omega) N_0.symm⟩, rfl⟩
  refine ⟨t, flush0_2 t, ?_⟩
  rw [mem_blk]
  obtain ⟨e0, e1, e2, -⟩ := idx_facts t
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 25000 ≤ (i 1).val ∧ (i 1).val < win0_2.index t (1 : Fin 3) * 25000 + 25000
    omega
  | ⟨2, _⟩ =>
    show win0_2.index t (2 : Fin 3) * 32 ≤ (i 2).val ∧ (i 2).val < win0_2.index t (2 : Fin 3) * 32 + 32
    omega

/-- THE ARRAY AFTER THE REGION: the product of the arrays the region finds. -/
theorem final_msgs (c : Dev nD) :
    (dat0 (F := Ideal) V c).arrAt 2 cfg0.N = prod (V c main_v6) (V c main_arg1) :=
  (dat0 V c).arrAt_eq_of_cover 2 (prod (V c main_v6) (V c main_arg1)) (fun t _ => flushed_eq V c t) cover

end Cert.KernelIdeal.Reg0

end
-- ==== Proof.LibColumnReduce.lean ====
/-
  Reusable lemmas: reductions down the columns of an [a, b] array, read at an entry.

  A vector.multi_reduction over axis 0 of an [a, b] array leaves a [b] array whose entry q gathers column q:
      <add>       from the zero accumulator:  Σ_p src[p, q],
      <maximumf>  from the accumulator's value:  the fold of max over p of src[p, q].
  Both are read over the extended reals; generic in the extents and the float format.
-/
import Idealize.ShloMosaic.Lib.Pipeline.Value
import Idealize.ShloMosaic.Lib.ValueIdx
import Idealize.ShloMosaic.PureOps.Ideal.Laws

noncomputable section

namespace Cert.ColumnReduce

open Idealize.ShloMosaic Idealize.ShloMosaic.ValueIdx

variable {a b : ℕ}

/-- The source index of a reduction over the columns: the column q with the row p inserted is (p, q). -/
theorem lift_col (h : (⟨2, ![a, b]⟩ : Shape).Reduces [(0 : Fin 2)] ⟨1, ![b]⟩) (q : Fin b) (p : Fin a) :
    h.lift (ix1 q) p = ix2 p q := by
  funext d
  apply Fin.ext
  show h.liftVal (ix1 q) p.val d = (ix2 p q d).val
  unfold Shape.Reduces.liftVal
  match d with
  | ⟨0, _⟩ => rfl
  | ⟨1, _⟩ => rfl

/-- A sum down the columns of an [a, b] array, from the zero accumulator, is at q the sum over p of the entries (p, q). -/
theorem colSum_apply {φ : FTy} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.add.neutral φ hφ) (q : Fin b) :
    multiReduction .add [(0 : Fin 2)] ⟨1, ![b]⟩ src acc h hφ hacc (ix1 q) = ∑ p : Fin a, src (ix2 p q) := by
  refine (Ideal.multiReduction_add_single src acc h hφ hacc (ix1 q)).trans ?_
  show ∑ p : Fin a, src (h.lift (ix1 q) p) = _
  exact Finset.sum_congr rfl fun p _ => congrArg src (lift_col h q p)

/-- A running maximum down the columns of an [a, b] array is at q the fold of max, from the accumulator's value, over
    the entries (p, q). -/
theorem colMax_apply {φ : FTy} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.maximumf.neutral φ hφ) (q : Fin b) :
    multiReduction .maximumf [(0 : Fin 2)] ⟨1, ![b]⟩ src acc h hφ hacc (ix1 q)
      = (Finset.univ : Finset (Fin a)).fold max (Ideal.ofBits φ acc) (fun p => src (ix2 p q)) := by
  refine (Ideal.multiReduction_maximumf_single src acc h hφ hacc (ix1 q)).trans ?_
  have e : (src ∘ h.lift (ix1 q)) = fun p => src (ix2 p q) := funext fun p => congrArg src (lift_col h q p)
  show (Finset.univ : Finset (Fin a)).fold max (Ideal.ofBits φ acc) (src ∘ h.lift (ix1 q)) = _
  rw [e]
  rfl

end Cert.ColumnReduce

end
-- ==== Proof.LibRowOfVector.lean ====
/-
  Reusable lemmas: a vector viewed as a one-row matrix and back, read at an entry.

  A shape cast of a length-b vector to a [1, b] matrix keeps the row-major order, so entry (0, q) of the matrix is
  entry q of the vector; the cast of a [1, b] matrix to a length-b vector reads entry q from (0, q).  Generic in the
  extent b and in the element type.
-/
import Idealize.ShloMosaic.Lib.Pipeline.Value
import Idealize.ShloMosaic.Lib.ValueIdx

noncomputable section

namespace Cert.RowOfVector

open Idealize.ShloMosaic Idealize.ShloMosaic.ValueIdx

variable {α : Type} {b : ℕ}

/-- A vector viewed as one row reads, at (u, q), the vector's entry q. -/
theorem row_apply (v : (⟨1, ![b]⟩ : Shape).Idx → α) (h : (⟨1, ![b]⟩ : Shape).ShapeCasts ⟨2, ![1, b]⟩) (u : Fin 1)
    (q : Fin b) : shapeCast ⟨2, ![1, b]⟩ v h (ix2 u q) = v (ix1 q) := by
  refine shapeCast_apply v h (ix2 u q) (ix1 q) ?_
  rw [Shape.rowMajor_val_one, Shape.rowMajor_val_two]
  show q.val = u.val * b + q.val
  have hu : u.val = 0 := by have := u.isLt; omega
  rw [hu]; omega

/-- One row viewed as a vector reads, at q, the row's entry (0, q). -/
theorem vector_apply (v : (⟨2, ![1, b]⟩ : Shape).Idx → α) (h : (⟨2, ![1, b]⟩ : Shape).ShapeCasts ⟨1, ![b]⟩)
    (q : Fin b) : shapeCast ⟨1, ![b]⟩ v h (ix1 q) = v (ix2 (0 : Fin 1) q) := by
  refine shapeCast_apply v h (ix1 q) (ix2 (0 : Fin 1) q) ?_
  rw [Shape.rowMajor_val_one, Shape.rowMajor_val_two]
  show (0 : ℕ) * b + q.val = q.val
  omega

end Cert.RowOfVector

end
-- ==== Proof.LibRunningSum.lean ====
/-
  A reusable lemma: an accumulator reset at the first step and added to at every later step holds the sum of the
  steps' contributions.

  upTo g n is what the accumulator holds after step n: (0 + g 0) after the first step, and the previous contents
  plus g (n + 1) after each later one.  It is the sum of g over the steps 0 … n, and after the last of N steps the
  sum of g over all of them.  Stated in any commutative additive monoid (the extended reals are one).
-/
import Mathlib.Algebra.BigOperators.Fin

namespace Cert.RunningSum

variable {M : Type} [AddCommMonoid M] {N : ℕ}

/-- The accumulator's contents after step n. -/
def upTo (g : Fin N → M) : (n : ℕ) → n < N → M
  | 0, h => 0 + g ⟨0, h⟩
  | n + 1, h => upTo g n (Nat.lt_of_succ_lt h) + g ⟨n + 1, h⟩

/-- It is the sum of the contributions of the steps 0 … n. -/
theorem upTo_eq_sum (g : Fin N → M) : ∀ (n : ℕ) (h : n < N),
    upTo g n h = ∑ t : Fin (n + 1), g ⟨t.val, Nat.lt_of_lt_of_le t.isLt h⟩
  | 0, h => by
    rw [upTo, zero_add, Fin.sum_univ_one]
    rfl
  | n + 1, h => by
    rw [upTo, upTo_eq_sum g n, Fin.sum_univ_castSucc (n := n + 1)]
    rfl

/-- After the last step it is the sum of all the contributions. -/
theorem upTo_last (g : Fin N → M) (n : ℕ) (h : n < N) (hN : N = n + 1) : upTo g n h = ∑ t : Fin N, g t := by
  subst hN
  rw [upTo_eq_sum]

end Cert.RunningSum
-- ==== Proof.LibBlockedSum.lean ====
/-
  A reusable lemma: a sum over the rows of an array taken block by block is the sum over all the rows.

  When n = a·b rows are cut into a consecutive blocks of b rows, row r of block t being row b·t + r, summing a
  function of the row first inside each block and then over the blocks is summing it over all n rows.  Stated in any
  commutative additive monoid, with the block count allowed to be a number N only known to equal a.
-/
import Mathlib.Algebra.BigOperators.Fin
import Mathlib.Logic.Equiv.Fin.Basic

namespace Cert.BlockedSum

variable {M : Type} [AddCommMonoid M]

theorem sum_blocks {N a b n : ℕ} (hN : N = a) (hn : a * b = n) (F : Fin n → M) (row : Fin N → Fin b → Fin n)
    (hrow : ∀ t r, (row t r).val = b * t.val + r.val) :
    ∑ t : Fin N, ∑ r : Fin b, F (row t r) = ∑ k : Fin n, F k := by
  subst hN
  subst hn
  rw [← Fintype.sum_prod_type']
  refine Fintype.sum_equiv finProdFinEquiv _ _ fun x => congrArg F (Fin.ext ?_)
  rw [hrow, finProdFinEquiv_apply_val]
  omega

end Cert.BlockedSum
-- ==== Proof.Reg1.lean ====
/-
  The batch statistics of an array o of 200000 rows and 32 columns, accumulated over a grid of 8 points.

  Point t reads the block of rows 25000·t … 25000·t + 24999 and holds two rows of 32 accumulators, carried from point
  to point and written back after the last point only.  The first point stores zeros into both; every point then adds
  to the first the sums down the columns of its block, and to the second the sums down the columns of the squares of
  its block.  Over the extended reals addition is a commutative monoid, 0 + x = x, and regrouping 8 blocks of 25000
  rows into 200000 rows is a bijection of index sets (row n = 25000·t + r), so after the last point

      first  accumulator, entry (0, q)  =  Σ over n < 200000 of o[n, q],
      second accumulator, entry (0, q)  =  Σ over n < 200000 of o[n, q] · o[n, q],

  with no finiteness assumption.  The steps: what each case of the body leaves in each accumulator is its last
  covering store's value (the first point's read-back of the zero row is that zero row); read at an entry these are
  "previous contents plus a column sum"; by induction on the point the accumulators hold the running sums of the
  points' contributions; a block's entry (p, q) is the array's entry (25000·t + p, q); the contributions of all the
  points add up to the sum over all the rows; and the one write-back, whose block is the whole row, writes it.
-/
import proofs.«172280_j16088947491314_1_alg».proof.Proof.Gen.KernelIdeal.Frame
import proofs.«172280_j16088947491314_1_alg».proof.Proof.LibColumnReduce
import proofs.«172280_j16088947491314_1_alg».proof.Proof.LibRowOfVector
import proofs.«172280_j16088947491314_1_alg».proof.Proof.LibRunningSum
import proofs.«172280_j16088947491314_1_alg».proof.Proof.LibBlockedSum
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Reg1

open Cert.KernelIdeal Cert.KernelIdeal.Gen Idealize.ShloMosaic.ValueIdx

section Pieces
variable {F : FTy → Type} [FloatOps F]

theorem hz : (![0, 0] : Fin 2 → Nat) = fun _ => 0 := funext fun a => by fin_cases a <;> rfl

/-- A later point: the first accumulator's buffer, holding xo1, is left at xo1 plus the block's column sums. -/
theorem out_B_1 (c : Dev nD) (i : grid1.Coords) (a1 : Memref sig .tc .vmem S25000x32 .f32) (h1 : a1.IsWhole)
    (a2 : Memref sig .tc .vmem S1x32 .f32) (h2 : a2.IsWhole) (a3 : Memref sig .tc .vmem S1x32 .f32) (h3 : a3.IsWhole)
    (hc : ¬cond1_0 i) (x : Vec F S25000x32 .f32) (xo1 xo2 : Vec F S1x32 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, View.ld_unit_zero (S := S25000x32) hz,
    View.ld_unit_zero (S := S1x32) hz]

/-- A later point: the second accumulator's buffer, holding xo2, is left at xo2 plus the column sums of the squares. -/
theorem out_B_2 (c : Dev nD) (i : grid1.Coords) (a1 : Memref sig .tc .vmem S25000x32 .f32) (h1 : a1.IsWhole)
    (a2 : Memref sig .tc .vmem S1x32 .f32) (h2 : a2.IsWhole) (a3 : Memref sig .tc .vmem S1x32 .f32) (h3 : a3.IsWhole)
    (hc : ¬cond1_0 i) (x : Vec F S25000x32 .f32) (xo1 xo2 : Vec F S1x32 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h3.read_unread, View.ld_unit_zero (S := S25000x32) hz,
    View.ld_unit_zero (S := S1x32) hz]

/-- The first point: the zero row is stored, read back, and the block's column sums are added to it. -/
theorem out_A_1 (c : Dev nD) (i : grid1.Coords) (a1 : Memref sig .tc .vmem S25000x32 .f32) (h1 : a1.IsWhole)
    (a2 : Memref sig .tc .vmem S1x32 .f32) (h2 : a2.IsWhole) (a3 : Memref sig .tc .vmem S1x32 .f32) (h3 : a3.IsWhole)
    (hc : cond1_0 i) (x : Vec F S25000x32 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x32) hz, View.readCov_unit_zero (S := S1x32) _ hz]
  simp only [View.readAt_eq_ld, h1.read_unread, View.ld_unit_zero (S := S25000x32) hz]

/-- The first point, second accumulator: the zero row, then the column sums of the squares added to it. -/
theorem out_A_2 (c : Dev nD) (i : grid1.Coords) (a1 : Memref sig .tc .vmem S25000x32 .f32) (h1 : a1.IsWhole)
    (a2 : Memref sig .tc .vmem S1x32 .f32) (h2 : a2.IsWhole) (a3 : Memref sig .tc .vmem S1x32 .f32) (h3 : a3.IsWhole)
    (hc : cond1_0 i) (x : Vec F S25000x32 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x32) hz, View.readCov_unit_zero (S := S1x32) _ hz]
  simp only [View.readAt_eq_ld, h1.read_unread, View.ld_unit_zero (S := S25000x32) hz]

end Pieces

section Payloads

/-- The zero rows the first point stores are zero at every entry. -/
theorem pay1_apply (i : S1x32.Idx) : k1_pay1 (F := Ideal) i = 0 := by
  unfold k1_pay1
  show Ideal.ofBits .f32 0x00000000#32 = 0
  exact Ideal.ofBits_zero_f32

theorem pay2_apply (i : S1x32.Idx) : k1_pay2 (F := Ideal) i = 0 := by
  unfold k1_pay2
  show Ideal.ofBits .f32 0x00000000#32 = 0
  exact Ideal.ofBits_zero_f32

/-- The first accumulate store: entry (0, q) of the accumulator plus the sum of column q of the block. -/
theorem pay4_apply (x : Vec Ideal S25000x32 .f32) (acc : Vec Ideal S1x32 .f32) (u : Fin 1) (q : Fin 32) :
    k1_pay4 (F := Ideal) x acc (ix2 u q) = acc (ix2 u q) + ∑ p : Fin 25000, x (ix2 p q) := by
  unfold k1_pay4 k1_pay3
  simp only [shapeCast_self]
  rw [addf_apply, Cert.RowOfVector.row_apply]
  exact congrArg (fun t => acc (ix2 u q) + t)
    (Cert.ColumnReduce.colSum_apply (a := 25000) (b := 32) x _ reduces_S25000x32_S32 _ _ q)

/-- The second accumulate store: entry (0, q) of the accumulator plus the sum of the squares of column q of the block. -/
theorem pay5_apply (x : Vec Ideal S25000x32 .f32) (acc : Vec Ideal S1x32 .f32) (u : Fin 1) (q : Fin 32) :
    k1_pay5 (F := Ideal) x acc (ix2 u q) = acc (ix2 u q) + ∑ p : Fin 25000, x (ix2 p q) * x (ix2 p q) := by
  unfold k1_pay5 k1_pay3
  simp only [shapeCast_self]
  rw [addf_apply, Cert.RowOfVector.row_apply]
  exact congrArg (fun t => acc (ix2 u q) + t)
    (Cert.ColumnReduce.colSum_apply (a := 25000) (b := 32) (mulf x x) _ reduces_S25000x32_S32 _ _ q)

end Payloads

section Accumulation

variable (V : (c : Dev nD) → (b : Ref sig .tc) → Buf (Elt Ideal) ((c : Thread nD τ).loc b))

/-- The block of 25000 rows that point t reads. -/
def blk (c : Dev nD) (t : Fin cfg1.N) : Vec Ideal S25000x32 .f32 := iblk1 V c 0 t

/-- Point t's contribution to column q of the first accumulator: the sum of column q of the point's block. -/
def g1 (c : Dev nD) (q : Fin 32) (t : Fin cfg1.N) : EReal :=
  ∑ p : Fin 25000, blk V c t (ix2 p q)

/-- Point t's contribution to column q of the second accumulator: the sum of the squares of column q of the block. -/
def g2 (c : Dev nD) (q : Fin 32) (t : Fin cfg1.N) : EReal :=
  ∑ p : Fin 25000, blk V c t (ix2 p q) * blk V c t (ix2 p q)

/-- What the two accumulators hold after point n: reset at the first point, added to at each later one — by
    induction on the point. -/
theorem outsAt_eq (c : Dev nD) : ∀ (n : ℕ) (h : n < cfg1.N) (u : Fin 1) (q : Fin 32),
    (outsAt1 V c n h).1 (ix2 u q) = Cert.RunningSum.upTo (g1 V c q) n h
      ∧ (outsAt1 V c n h).2 (ix2 u q) = Cert.RunningSum.upTo (g2 V c q) n h
  | 0, h, u, q => by
    rw [outsAt1_A V c ⟨0, h⟩ rfl]
    dsimp only
    rw [out_A_1, out_A_2, pay4_apply, pay5_apply, pay1_apply, pay2_apply]
    exact ⟨rfl, rfl⟩
  | n + 1, h, u, q => by
    have hN : cfg1.N = 8 := N_1
    have hB : ¬(⟨n + 1, h⟩ : Fin cfg1.N).val % 8 = 0 := by dsimp only; omega
    rw [outsAt1_B V c ⟨n + 1, h⟩ hB]
    dsimp only
    rw [out_B_1, out_B_2, pay4_apply, pay5_apply]
    show (outsAt1 V c n _).1 (ix2 u q) + _ = _ ∧ (outsAt1 V c n _).2 (ix2 u q) + _ = _
    rw [(outsAt_eq c n _ u q).1, (outsAt_eq c n _ u q).2]
    exact ⟨rfl, rfl⟩

end Accumulation

section Final

variable (V : (c : Dev nD) → (b : Ref sig .tc) → Buf (Elt Ideal) ((c : Thread nD τ).loc b))

/-- The input window's block index, decided over the grid: block t along the rows, block 0 along the columns. -/
theorem idx_facts : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Row p of point t's block is row 25000·t + p of the array. -/
def rowOf (t : Fin cfg1.N) (p : Fin 25000) : Fin 200000 :=
  ⟨25000 * t.val + p.val, by have := t.isLt; have hN : cfg1.N = 8 := N_1; have := p.isLt; omega⟩

/-- The array the region reads, at row n and column q, as an extended real. -/
def arr (c : Dev nD) (n : Fin 200000) (q : Fin 32) : EReal := V c main_v17 (ix2 n q)

theorem arr_def (c : Dev nD) (n : Fin 200000) (q : Fin 32) : arr V c n q = V c main_v17 (ix2 n q) := rfl

/-- The block that point t reads, at (p, q), is the array at (25000·t + p, q). -/
theorem blk_apply (c : Dev nD) (t : Fin cfg1.N) (p : Fin 25000) (q : Fin 32) :
    blk V c t (ix2 p q) = arr V c (rowOf t p) q := by
  obtain ⟨e0, e1⟩ := idx_facts t
  unfold blk iblk1
  rw [View.read_apply]
  show V c main_v17 _ = V c main_v17 _
  congr 1
  funext a
  apply Fin.ext
  match a with
  | ⟨0, _⟩ => show win1_0.index t (0 : Fin 2) * 25000 + 1 * p.val = 25000 * t.val + p.val; rw [e0]; omega
  | ⟨1, _⟩ => show win1_0.index t (1 : Fin 2) * 32 + 1 * q.val = q.val; rw [e1]; omega

theorem lt7 : 7 < cfg1.N := by rw [show cfg1.N = 8 from N_1]; decide

/-- The 8 blocks of 25000 rows are the 200000 rows: the contributions of all the points add up to the column sum. -/
theorem total1 (c : Dev nD) (q : Fin 32) :
    ∑ t : Fin cfg1.N, g1 V c q t = ∑ n : Fin 200000, arr V c n q := by
  unfold g1
  simp only [blk_apply]
  exact Cert.BlockedSum.sum_blocks (N := cfg1.N) (a := 8) (b := 25000) (n := 200000) N_1 (by norm_num)
    (fun k => arr V c k q) rowOf (fun t r => rfl)

/-- The column sums, as contents of the first result array. -/
def G1 (c : Dev nD) : Buf (Elt Ideal) ((c : Thread nD τ).loc main_v18_0) :=
  fun i : S1x32.Idx => ((∑ n : Fin 200000, arr V c n (⟨(i 1).val, (i 1).isLt⟩ : Fin 32)) : EReal)

/-- After the last point the first accumulator holds the column sums. -/
theorem last_eq1 (c : Dev nD) : (outsAt1 V c 7 lt7).1 = G1 V c := by
  funext i
  obtain ⟨u, q, rfl⟩ : ∃ (u : Fin 1) (q : Fin 32), i = ix2 u q := ⟨i 0, i 1, eq_ix2 i⟩
  rw [(outsAt_eq V c 7 lt7 u q).1, Cert.RunningSum.upTo_last _ 7 lt7 N_1, total1]
  rfl

/-- The one write-back, at the last point, writes them: its block is the whole [1,32] array. -/
theorem flushed_eq1 (c : Dev nD) (t : Fin cfg1.N) (hf : (cfg1.win 1).flush t = true) :
    (dat1 V c).flushed 1 t = ((cfg1.win 1).blk t).view.read (Elt Ideal) (G1 V c) := by
  have hN : cfg1.N = 8 := N_1
  have h7 : t.val = 7 := by have := (flush1_1 t).mp hf; have := t.isLt; omega
  obtain rfl : t = t1_7 := Fin.ext h7
  show (cfg1.win 1).cut (grid1.coords t1_7) ((dat1 V c).after 1 t1_7) = _
  rw [after1_1]
  rw [show (outsAt1 V c t1_7.val t1_7.isLt).1 = G1 V c from last_eq1 V c]
  have hz' : (fun a => win1_1.index t1_7 a * main_v18_0.ty.shape.size a) = fun _ => 0 :=
    funext fun a => by fin_cases a <;> decide
  exact (Memref.read_access_unit_zero (Elt Ideal) main_v18_0 hz' (fun a => by rw [congrFun hz' a]; simp) (G1 V c)).symm

/-- So the first result array ends holding the column sums of the whole array:
    entry (0, q) is the sum over all 200000 rows n of the array at (n, q). -/
theorem final_sum (c : Dev nD) : (dat1 (F := Ideal) V c).arrAt 1 cfg1.N
    = fun i : S1x32.Idx => ∑ n : Fin 200000, arr V c n (⟨(i 1).val, (i 1).isLt⟩ : Fin 32) :=
  (dat1 V c).arrAt_eq_of_cover 1 (G1 V c) (flushed_eq1 V c) fun i =>
    ⟨t1_7, (flush1_1 t1_7).mpr rfl, by
      show i ∈ ((View.whole main_v18_0).slice (win1_1.rect t1_7)).set
      rw [View.set_slice_whole, Rect.mem_set_unit]
      intro a
      have h0 : (i 0 : Nat) < 1 := (i 0).isLt
      have h1 : (i 1 : Nat) < 32 := (i 1).isLt
      match a with
      | ⟨0, _⟩ => show win1_1.index t1_7 0 * win1_1.size 0 ≤ (i 0 : Nat) ∧ (i 0 : Nat) < win1_1.index t1_7 0 * win1_1.size 0 + win1_1.xsize (grid1.coords t1_7) 0
                  rw [show win1_1.index t1_7 0 * win1_1.size 0 = 0 from by decide +kernel, show win1_1.xsize (grid1.coords t1_7) 0 = 1 from by decide +kernel]; omega
      | ⟨1, _⟩ => show win1_1.index t1_7 1 * win1_1.size 1 ≤ (i 1 : Nat) ∧ (i 1 : Nat) < win1_1.index t1_7 1 * win1_1.size 1 + win1_1.xsize (grid1.coords t1_7) 1
                  rw [show win1_1.index t1_7 1 * win1_1.size 1 = 0 from by decide +kernel, show win1_1.xsize (grid1.coords t1_7) 1 = 32 from by decide +kernel]; omega⟩

/-- The 8 blocks of 25000 rows are the 200000 rows: the contributions of all the points add up to the column sum of squares. -/
theorem total2 (c : Dev nD) (q : Fin 32) :
    ∑ t : Fin cfg1.N, g2 V c q t = ∑ n : Fin 200000, arr V c n q * arr V c n q := by
  unfold g2
  simp only [blk_apply]
  exact Cert.BlockedSum.sum_blocks (N := cfg1.N) (a := 8) (b := 25000) (n := 200000) N_1 (by norm_num)
    (fun k => arr V c k q * arr V c k q) rowOf (fun t r => rfl)

/-- The column sums of squares, as contents of the second result array. -/
def G2 (c : Dev nD) : Buf (Elt Ideal) ((c : Thread nD τ).loc main_v18_1) :=
  fun i : S1x32.Idx => ((∑ n : Fin 200000, arr V c n (⟨(i 1).val, (i 1).isLt⟩ : Fin 32) * arr V c n (⟨(i 1).val, (i 1).isLt⟩ : Fin 32)) : EReal)

/-- After the last point the second accumulator holds the column sums of squares. -/
theorem last_eq2 (c : Dev nD) : (outsAt1 V c 7 lt7).2 = G2 V c := by
  funext i
  obtain ⟨u, q, rfl⟩ : ∃ (u : Fin 1) (q : Fin 32), i = ix2 u q := ⟨i 0, i 1, eq_ix2 i⟩
  rw [(outsAt_eq V c 7 lt7 u q).2, Cert.RunningSum.upTo_last _ 7 lt7 N_1, total2]
  rfl

/-- The one write-back, at the last point, writes them: its block is the whole [1,32] array. -/
theorem flushed_eq2 (c : Dev nD) (t : Fin cfg1.N) (hf : (cfg1.win 2).flush t = true) :
    (dat1 V c).flushed 2 t = ((cfg1.win 2).blk t).view.read (Elt Ideal) (G2 V c) := by
  have hN : cfg1.N = 8 := N_1
  have h7 : t.val = 7 := by have := (flush1_2 t).mp hf; have := t.isLt; omega
  obtain rfl : t = t1_7 := Fin.ext h7
  show (cfg1.win 2).cut (grid1.coords t1_7) ((dat1 V c).after 2 t1_7) = _
  rw [after1_2]
  rw [show (outsAt1 V c t1_7.val t1_7.isLt).2 = G2 V c from last_eq2 V c]
  have hz' : (fun a => win1_2.index t1_7 a * main_v18_1.ty.shape.size a) = fun _ => 0 :=
    funext fun a => by fin_cases a <;> decide
  exact (Memref.read_access_unit_zero (Elt Ideal) main_v18_1 hz' (fun a => by rw [congrFun hz' a]; simp) (G2 V c)).symm

/-- So the second result array ends holding the column sums of squares of the whole array:
    entry (0, q) is the sum over all 200000 rows n of the square of the array at (n, q). -/
theorem final_sumsq (c : Dev nD) : (dat1 (F := Ideal) V c).arrAt 2 cfg1.N
    = fun i : S1x32.Idx => ∑ n : Fin 200000, arr V c n (⟨(i 1).val, (i 1).isLt⟩ : Fin 32) * arr V c n (⟨(i 1).val, (i 1).isLt⟩ : Fin 32) :=
  (dat1 V c).arrAt_eq_of_cover 2 (G2 V c) (flushed_eq2 V c) fun i =>
    ⟨t1_7, (flush1_2 t1_7).mpr rfl, by
      show i ∈ ((View.whole main_v18_1).slice (win1_2.rect t1_7)).set
      rw [View.set_slice_whole, Rect.mem_set_unit]
      intro a
      have h0 : (i 0 : Nat) < 1 := (i 0).isLt
      have h1 : (i 1 : Nat) < 32 := (i 1).isLt
      match a with
      | ⟨0, _⟩ => show win1_2.index t1_7 0 * win1_2.size 0 ≤ (i 0 : Nat) ∧ (i 0 : Nat) < win1_2.index t1_7 0 * win1_2.size 0 + win1_2.xsize (grid1.coords t1_7) 0
                  rw [show win1_2.index t1_7 0 * win1_2.size 0 = 0 from by decide +kernel, show win1_2.xsize (grid1.coords t1_7) 0 = 1 from by decide +kernel]; omega
      | ⟨1, _⟩ => show win1_2.index t1_7 1 * win1_2.size 1 ≤ (i 1 : Nat) ∧ (i 1 : Nat) < win1_2.index t1_7 1 * win1_2.size 1 + win1_2.xsize (grid1.coords t1_7) 1
                  rw [show win1_2.index t1_7 1 * win1_2.size 1 = 0 from by decide +kernel, show win1_2.xsize (grid1.coords t1_7) 1 = 32 from by decide +kernel]; omega⟩

end Final

end Cert.KernelIdeal.Reg1

end
-- ==== Proof.LibBroadcastRows.lean ====
/-
  Reusable lemmas: how a host program repeats a vector down the rows of a matrix, read at an entry.

  jnp broadcasts a vector [b] against a matrix [M, b] in two steps: the vector viewed as one row, [b] -> [1, b]
  (`broadcast_in_dim` with dims [1]), and that row repeated down the M rows, [1, b] -> [M, b] (dims [0, 1]).
  At (p, c) the result is the vector's entry c, whatever the row p. Generic in M, b and in the element type.
-/
import Idealize.ShloMosaic.Lib.Pipeline.Value
import Idealize.ShloMosaic.Lib.ValueIdx

noncomputable section

namespace Cert.BroadcastRows

open Idealize.ShloMosaic Idealize.ShloMosaic.ValueIdx

variable {α : Type} {M b : ℕ}

/-- One row repeated down M rows reads, at (p, c), the row's entry c. -/
theorem row_apply (v : (⟨2, ![1, b]⟩ : Shape).Idx → α)
    (h : (⟨2, ![1, b]⟩ : Shape).BroadcastsInDim ⟨2, ![M, b]⟩ ![0, 1]) (p : Fin M) (c : Fin b) :
    broadcastInDim ⟨2, ![M, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector viewed as one row reads, at (u, c), the vector's entry c. -/
theorem unit_apply (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Cert.BroadcastRows

end
-- ==== Proof.LibHostBroadcasts.lean ====
/-
  Reusable lemmas: how a host program spreads a scalar, a vector or a column over a larger array, read at an entry.

  jnp lowers broadcasting to `broadcast_in_dim` with an explicit map from the operand's axes to the result's:
    a scalar [] to any shape (no axes mapped):      every entry is the scalar;
    a vector [T] to a column [T, 1] (dims [0]):     entry (e, u) is the vector's entry e;
    a column [T, 1] to a matrix [T, C] (dims [0,1]): entry (e, c) is the column's entry (e, 0).
  Generic in the extents and in the element type.
-/
import Idealize.ShloMosaic.Lib.Pipeline.Value
import Idealize.ShloMosaic.Lib.ValueIdx

noncomputable section

namespace Cert.HostBroadcasts

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector viewed as a column reads, at (e, u), the vector's entry e. -/
theorem col_apply {T : ℕ} (v : (⟨1, ![T]⟩ : Shape).Idx → α)
    (h : (⟨1, ![T]⟩ : Shape).BroadcastsInDim ⟨2, ![T, 1]⟩ ![0]) (e : Fin T) (u : Fin 1) :
    broadcastInDim ⟨2, ![T, 1]⟩ ![0] h v (ix2 e u) = v (ix1 e) := by
  refine broadcastInDim_apply ![0] h v (ix2 e u) (ix1 e) fun ax => ?_
  match ax with
  | ⟨0, _⟩ =>
    show e.val = if T = 1 then 0 else e.val
    split
    · have := e.isLt; omega
    · rfl

/-- A column repeated along the rows' entries reads, at (e, c), the column's entry (e, 0). -/
theorem col_rows_apply {T C : ℕ} (v : (⟨2, ![T, 1]⟩ : Shape).Idx → α)
    (h : (⟨2, ![T, 1]⟩ : Shape).BroadcastsInDim ⟨2, ![T, C]⟩ ![0, 1]) (e : Fin T) (c : Fin C) :
    broadcastInDim ⟨2, ![T, C]⟩ ![0, 1] h v (ix2 e c) = v (ix2 e (0 : Fin 1)) := by
  refine broadcastInDim_apply ![0, 1] h v (ix2 e c) (ix2 e (0 : Fin 1)) fun ax => ?_
  match ax with
  | ⟨0, _⟩ =>
    show e.val = if T = 1 then 0 else e.val
    split
    · have := e.isLt; omega
    · rfl
  | ⟨1, _⟩ => rfl

end Cert.HostBroadcasts

end
-- ==== Proof.RefRead.lean ====
/-
  The batch-normalisation stage of the reference, read at one entry, at the ideal values (floats are extended
  reals, every operation exact).

  At row n and column q the stage is

      max (gamma_q · (o_nq − mean_q) · rsqrt(var_q + ε) + beta_q, 0),
      mean_q = (Σ_i o_iq) / N,      var_q = (Σ_i (o_iq − mean_q)²) / N,

  N the row count as the f32 constant the program divides by. What makes the printed term that: each host sum
  starts from the zero word, and 0 + Σ = Σ for every extended real; a vector repeated down the rows reads the
  vector's entry at the column; the variance's divisor is N less the integer zero converted, N − 0 = N; and the
  guard "divisor > 0" holds because N is the real number 200000, so the select takes the quotient and the
  not-a-number word it guards against is never read.
-/
import proofs.«172280_j16088947491314_1_alg».proof.Proof.RefRun
import proofs.«172280_j16088947491314_1_alg».proof.Proof.LibBroadcastRows
import proofs.«172280_j16088947491314_1_alg».proof.Proof.LibHostBroadcasts
import Idealize.ShloMosaic.PureOps.Ideal.Laws
import Idealize.ShloMosaic.Lib.ValueIdx
import Idealize.ShloMosaic.Lib.Pipeline.Value

noncomputable section

namespace Cert.ReferenceIdeal.RefRead

open Cert.ReferenceIdeal Cert.ReferenceIdeal.Gen Idealize.ShloMosaic Idealize.ShloMosaic.ValueIdx
open scoped BigOperators

/-! ## The pieces at an entry -/

/-- The host's quotient at an entry is the quotient of the entries. -/
theorem hostDivf_apply {s : Shape} (a b : FVec Ideal s .f32) (i : s.Idx) : Host.divf a b i = Ideal.div (a i) (b i) := rfl

/-- The host's reciprocal square root at an entry is that of the entry. -/
theorem hostRsqrt_apply {s : Shape} (a : FVec Ideal s .f32) (i : s.Idx) : Host.rsqrt a i = Ideal.rsqrt (a i) := rfl

/-- A vector of column values repeated down the rows reads, at (n, q), the vector's entry q. -/
theorem rows_apply (v : FVec Ideal S32 .f32) (n : Fin 200000) (q : Fin 32) :
    RefRun.rows (F := Ideal) v (ix2 n q) = v (ix1 q) :=
  (Cert.BroadcastRows.row_apply _ _ n q).trans (Cert.BroadcastRows.unit_apply _ _ (0 : Fin 1) q)

/-- A column sum from the zero word, at column q, is the sum over the rows of the entries of that column:
    the initial value is the extended real zero, and zero plus the sum is the sum. -/
theorem colSum_apply (x : FVec Ideal S200000x32 .f32) (q : Fin 32) :
    Host.reduceAdd (F := Ideal) x (constant S_ .f32 0x00000000#32) reducesTo_S200000x32_S32_d0 h_S_ (ix1 q)
      = ∑ i : Fin 200000, x (ix2 i q) := by
  have hred : S200000x32.Reduces [0] S32 := by decide
  show Ideal.hostReduceAdd reducesTo_S200000x32_S32_d0 x (Ideal.ofBits .f32 0x00000000#32) (ix1 q) = _
  rw [Ideal.hostReduceAdd_single reducesTo_S200000x32_S32_d0 hred x _ (ix1 q), Ideal.ofBits_zero_f32, zero_add]
  refine Finset.sum_congr rfl fun i _ => congrArg x (funext fun a => ?_)
  match a with
  | ⟨0, _⟩ => rfl
  | ⟨1, _⟩ => rfl

/-- The column mean at column q: the column's sum over the row count. -/
theorem colMean_apply (o : FVec Ideal S200000x32 .f32) (q : Fin 32) :
    RefRun.colMean (F := Ideal) o (ix1 q)
      = Ideal.div (∑ i : Fin 200000, o (ix2 i q)) (Ideal.ofBits .f32 0x48435000#32) := by
  unfold RefRun.colMean
  rw [hostDivf_apply, colSum_apply, Cert.HostBroadcasts.scalar_apply]
  rfl

/-- The deviation at (n, q): the entry less its column's mean (the mean computed through a leading unit axis). -/
theorem dev_apply (o : FVec Ideal S200000x32 .f32) (n : Fin 200000) (q : Fin 32) :
    RefRun.dev (F := Ideal) o (ix2 n q)
      = o (ix2 n q) - Ideal.div (∑ i : Fin 200000, o (ix2 i q)) (Ideal.ofBits .f32 0x48435000#32) := by
  unfold RefRun.dev
  rw [subf_apply, Cert.BroadcastRows.row_apply, hostDivf_apply, Cert.BroadcastRows.unit_apply, colSum_apply,
    Cert.HostBroadcasts.scalar_apply]
  rfl

/-- The variance's divisor is the row count: the integer zero converted is the real zero, and N − 0 = N. -/
theorem count_apply : RefRun.count (F := Ideal) ix0 = Ideal.ofBits .f32 0x48435000#32 := by
  show Ideal.ofBits .f32 0x48435000#32 - ((((0#32 : BitVec 32).toInt : ℤ) : ℝ) : EReal) = _
  simp

/-- The column variance at column q, the row count being the real number 200000: the guard holds (0 < 200000),
    so the select takes the quotient of the sum of squared deviations by the row count. -/
theorem colVar_apply (hN : Ideal.ofBits .f32 0x48435000#32 = ((200000 : ℝ) : EReal)) (o : FVec Ideal S200000x32 .f32)
    (q : Fin 32) :
    RefRun.colVar (F := Ideal) o (ix1 q)
      = Ideal.div
          (∑ i : Fin 200000,
            (o (ix2 i q) - Ideal.div (∑ j : Fin 200000, o (ix2 j q)) (Ideal.ofBits .f32 0x48435000#32))
              * (o (ix2 i q) - Ideal.div (∑ j : Fin 200000, o (ix2 j q)) (Ideal.ofBits .f32 0x48435000#32)))
          (Ideal.ofBits .f32 0x48435000#32) := by
  have hpos : (0 : EReal) < Ideal.ofBits .f32 0x48435000#32 := by
    rw [hN]; exact_mod_cast (by norm_num : (0 : ℝ) < 200000)
  have hguard : cmpf .ogt (RefRun.count (F := Ideal)) (constant S_ .f32 0x00000000#32) ix0 = 1#1 := by
    rw [cmpf_apply, count_apply]
    show Ideal.cmp .ogt (Ideal.ofBits .f32 0x48435000#32) (Ideal.ofBits .f32 0x00000000#32) = 1#1
    rw [Ideal.ofBits_zero_f32]
    show BitVec.ofBool (decide ((0 : EReal) < Ideal.ofBits .f32 0x48435000#32)) = 1#1
    rw [decide_eq_true hpos]
    rfl
  unfold RefRun.colVar
  rw [select_apply, Cert.HostBroadcasts.scalar_apply, hguard, select_one, hostDivf_apply, colSum_apply,
    Cert.HostBroadcasts.scalar_apply, count_apply]
  simp only [mulf_apply, dev_apply]

/-! ## The stage at an entry -/

/-- The batch-normalisation stage at (n, q), the row count being the real number 200000. -/
theorem bn_apply (hN : Ideal.ofBits .f32 0x48435000#32 = ((200000 : ℝ) : EReal)) (o : FVec Ideal S200000x32 .f32)
    (g b : FVec Ideal S32 .f32) (n : Fin 200000) (q : Fin 32) :
    RefRun.bn (F := Ideal) o g b (ix2 n q) =
      max (g (ix1 q) * (o (ix2 n q) - Ideal.div (∑ i : Fin 200000, o (ix2 i q)) (Ideal.ofBits .f32 0x48435000#32))
             * Ideal.rsqrt (Ideal.div (∑ i : Fin 200000, (o (ix2 i q) - Ideal.div (∑ j : Fin 200000, o (ix2 j q)) (Ideal.ofBits .f32 0x48435000#32)) * (o (ix2 i q) - Ideal.div (∑ j : Fin 200000, o (ix2 j q)) (Ideal.ofBits .f32 0x48435000#32))) (Ideal.ofBits .f32 0x48435000#32) + Ideal.ofBits .f32 0x3727C5AC#32)
           + b (ix1 q)) (Ideal.ofBits .f32 0x00000000#32) := by
  unfold RefRun.bn
  rw [maximumf_apply, addf_apply, mulf_apply, mulf_apply, subf_apply, rows_apply, rows_apply, rows_apply, rows_apply,
    hostRsqrt_apply, addf_apply, colMean_apply, colVar_apply hN, Cert.HostBroadcasts.scalar_apply,
    Cert.HostBroadcasts.scalar_apply]
  rfl

end Cert.ReferenceIdeal.RefRead

end
-- ==== Proof.LibDotBatched.lean ====
/-
  A BATCHED MATRIX PRODUCT ON THE HOST, READ AT AN ENTRY.

  A `dot_general` of a left operand L : [B, M, K] by a right operand R : [B, K, N] with one batch axis (axis 0 of
  each), contracting axis 2 of the left with axis 1 of the right, has the result shape [B, M, N] (batch axis, then the
  left operand's free axis, then the right operand's free axis).  Over the extended reals its entry (b, p, q) is the
  inner product, inside batch b, of row p of the left operand with column q of the right one:

      (L · R)[b, p, q] = Σ_{k < K} L[b, p, k] · R[b, k, q].

  The route: the product is a sum over the indices of the contracted shape (one axis of extent K, so its indices are
  the numbers k < K); at output index (b, p, q) and contraction position k the left operand is read at (b, p, k) — the
  batch axis reads the output's first coordinate, the free axis its second, the contracted axis reads k — and the right
  operand at (b, k, q) likewise.

  Proved first for the record written out with these dimension numbers, then stated for ANY record that has them.
  Generic in the extents B, M, K, N and in the operands' float formats.
-/
import Idealize.ShloMosaic.PureOps.Ideal.Laws
import Idealize.ShloMosaic.Lib.ValueIdx

noncomputable section

open scoped BigOperators

namespace Cert.DotBatched

open Idealize.ShloMosaic Idealize.ShloMosaic.ValueIdx

/-- The dimension numbers of the batched product: [B, M, K] by [B, K, N] into [B, M, N]. -/
abbrev batchedDims (B M K N : ℕ)
    (wf : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ where
  lhsContracting := [2]
  rhsContracting := [1]
  lhsNonContracting := [1]
  rhsNonContracting := [2]
  lhsBatch := [0]
  rhsBatch := [0]
  wf := wf

section Written
variable {B M K N : ℕ} (wf : DotDims.WF ⟨3, ![B, M, K]⟩ ⟨3, ![B, K, N]⟩ ⟨3, ![B, M, N]⟩ [2] [1] [1] [2] [0] [0])

/-- The left operand's index at output (b, p, q) and contraction position k is (b, p, k). -/
theorem lhsIdx_batched (b : Fin B) (p : Fin M) (q : Fin N) (k : Fin K) :
    (batchedDims B M K N wf).lhsIdx (ix3 b p q) ((contrEquiv1 (batchedDims B M K N wf) K rfl rfl).symm k) = ix3 b p k :=
  funext fun a => Fin.ext (by
    match a with
    | ⟨0, _⟩ => rfl
    | ⟨1, _⟩ => rfl
    | ⟨2, _⟩ =>
      exact ((batchedDims B M K N wf).lhsIdx_val_of_single rfl (ix3 b p q) _).trans
        (contrEquiv1_symm_val (batchedDims B M K N wf) K rfl rfl k))

/-- The right operand's index at output (b, p, q) and contraction position k is (b, k, q). -/
theorem rhsIdx_batched (b : Fin B) (p : Fin M) (q : Fin N) (k : Fin K) :
    (batchedDims B M K N wf).rhsIdx (ix3 b p q) ((contrEquiv1 (batchedDims B M K N wf) K rfl rfl).symm k) = ix3 b k q :=
  funext fun a => Fin.ext (by
    match a with
    | ⟨0, _⟩ => rfl
    | ⟨1, _⟩ =>
      exact ((batchedDims B M K N wf).rhsIdx_val_of_single rfl (ix3 b p q) _).trans
        (contrEquiv1_symm_val (batchedDims B M K N wf) K rfl rfl k)
    | ⟨2, _⟩ => rfl)

/-- The batched product at the written-out record, read at an entry (any precision attribute, any two operand
    formats). -/
theorem dotGeneral_batchedDims_apply {φ₁ φ₂ : FTy} (prec : Option ContractPrecision)
    (l : FVec Ideal ⟨3, ![B, M, K]⟩ φ₁) (r : FVec Ideal ⟨3, ![B, K, N]⟩ φ₂) (b : Fin B) (p : Fin M) (q : Fin N) :
    Host.dotGeneral (batchedDims B M K N wf) prec l r (ix3 b p q) = ∑ k : Fin K, l (ix3 b p k) * r (ix3 b k q) := by
  show FloatOps.dotGeneral (batchedDims B M K N wf) prec .single l r (ix3 b p q) = _
  rw [Ideal.dotGeneral_apply, ← Equiv.sum_comp (contrEquiv1 (batchedDims B M K N wf) K rfl rfl).symm]
  refine Finset.sum_congr rfl fun k _ => ?_
  rw [lhsIdx_batched, rhsIdx_batched]

end Written

/-- THE BATCHED PRODUCT READ AT (b, p, q): the inner product, inside batch b, of row p of the left operand with column q
    of the right one; for any record with these dimension numbers, any precision attribute and any two operand
    formats. -/
theorem dotGeneral_batched_apply_prec {B M K N : ℕ} {φ₁ φ₂ : FTy}
    (d : DotDims ⟨3, ![B, M, K]⟩ ⟨3, ![B, K, N]⟩ ⟨3, ![B, M, N]⟩)
    (h1 : d.lhsContracting = [2]) (h2 : d.rhsContracting = [1]) (h3 : d.lhsNonContracting = [1])
    (h4 : d.rhsNonContracting = [2]) (h5 : d.lhsBatch = [0]) (h6 : d.rhsBatch = [0]) (prec : Option ContractPrecision)
    (l : FVec Ideal ⟨3, ![B, M, K]⟩ φ₁) (r : FVec Ideal ⟨3, ![B, K, N]⟩ φ₂) (b : Fin B) (p : Fin M) (q : Fin N) :
    Host.dotGeneral d prec l r (ix3 b p q) = ∑ k : Fin K, l (ix3 b p k) * r (ix3 b k q) := by
  obtain ⟨lc, rc, ln, rn, lb, rb, wf⟩ := d
  simp only at h1 h2 h3 h4 h5 h6
  subst h1 h2 h3 h4 h5 h6
  exact dotGeneral_batchedDims_apply wf prec l r b p q

/-- The same at the default precision, both operands of one format. -/
theorem dotGeneral_batched_apply {B M K N : ℕ} {φ : FTy} (d : DotDims ⟨3, ![B, M, K]⟩ ⟨3, ![B, K, N]⟩ ⟨3, ![B, M, N]⟩)
    (h1 : d.lhsContracting = [2]) (h2 : d.rhsContracting = [1]) (h3 : d.lhsNonContracting = [1])
    (h4 : d.rhsNonContracting = [2]) (h5 : d.lhsBatch = [0]) (h6 : d.rhsBatch = [0])
    (l : FVec Ideal ⟨3, ![B, M, K]⟩ φ) (r : FVec Ideal ⟨3, ![B, K, N]⟩ φ) (b : Fin B) (p : Fin M) (q : Fin N) :
    Host.dotGeneral d none l r (ix3 b p q) = ∑ k : Fin K, l (ix3 b p k) * r (ix3 b k q) :=
  dotGeneral_batched_apply_prec d h1 h2 h3 h4 h5 h6 none l r b p q

end Cert.DotBatched

end
-- ==== Proof.LibFiniteInputs.lean ====
/-
  A reusable lemma: what the precondition "every entry is finite" says over the extended reals.

  The precondition is written as all(|x| < +∞): the entrywise absolute value compared, by the ordered "less than", with
  the splat of the float pattern of +∞, and the comparisons reduced by "and" over every axis from the constant true.
  Over the extended reals the pattern of +∞ denotes ⊤, the absolute value of x is max x (−x), and max x (−x) < ⊤ holds
  exactly when x is neither ⊤ nor ⊥: so the reduction being true says that every entry is a real number.
-/
import proofs.«172280_j16088947491314_1_alg».proof.Proof.LibRealEntries
import Idealize.ShloMosaic.Lib.ReduceAll

noncomputable section

namespace Cert.RealEntries

open Idealize.ShloMosaic

/-- The float pattern of +∞ denotes ⊤. -/
theorem ofBits_inf : Ideal.ofBits .f32 0x7F800000#32 = ⊤ := by
  simp [Ideal.ofBits, Ideal.ieee]

/-- |x| < ⊤ says that x is a real number. -/
theorem isR_of_abs_lt_top (x : EReal) (h : Ideal.cmp .olt (max x (-x)) ⊤ = 1#1) : IsR x := by
  have h' : max x (-x) < ⊤ := by
    have h1 : Ideal.cmp .olt (max x (-x)) ⊤ = BitVec.ofBool (decide (max x (-x) < ⊤)) := rfl
    rw [h1] at h
    by_contra hn
    rw [decide_eq_false hn] at h
    exact absurd h (by decide)
  induction x using EReal.rec with
  | bot => simp at h'
  | coe r => exact ⟨r, rfl⟩
  | top => simp at h'

/-- all(|x| < +∞) reduced over every axis is true: every entry of x is a real number. -/
theorem allReal_of_all_finite {s t u : Shape} {axes : List (Fin s.rank)} [Subsingleton t.Idx] (x : FVec Ideal s .f32)
    (hb : (⟨0, ![]⟩ : Shape).BroadcastsInDim s (![] : Fin 0 → Fin s.rank)) (init : u.Idx → BitVec 1)
    (h : s.ReducesTo axes t) (hu : 0 < u.numel) (j : t.Idx)
    (e : Host.reduce IntOp.andi
        (cmpf .olt (Host.absf x) (broadcastInDim s ![] hb (constant (F := Ideal) ⟨0, ![]⟩ .f32 0x7F800000#32))) init h hu j = 1#1) :
    AllReal x := fun i => by
  have hi := Host.reduce_andi_all _ init h hu j e i
  refine isR_of_abs_lt_top (x i) ?_
  rw [← ofBits_inf]
  exact hi

end Cert.RealEntries

end
-- ==== Proof.LibScatterRows.lean ====
/-
  SCATTER-ADD OF ROWS, READ AT AN ENTRY, AT THE IDEAL INSTANCE.

  A StableHLO scatter with an `add` body that adds whole rows `upd : [T, C]` into a matrix `x : [N, C]` at a
  column of scatter indices `idx : [T, 1]` (update window axis 1, inserted window axis 0, scatter axis to
  operand axis `[0]`, index vector on axis 1) has at entry `(v, c)`, over the extended reals, the value
  `x[v, c] + ∑ upd[e, c]` over the edges `e` whose scatter index `idx[e, 0]`, read as a signed integer and
  NOT clamped, is the row `v` (`scatterAdd_rows_apply`): an index outside `[0, N - 1]` lands nowhere.  The
  same scatter of a vector `upd : [T]` into `x : [N]` (no window axis) has at entry `v` the value
  `x[v] + ∑ upd[e]` over the same edges (`scatterAdd_vec_apply`).

  The route: an update entry lands on an operand entry exactly when on every axis its start plus its window
  coordinate is that entry's coordinate (`resultIdx?_eq_some_iff`); on these dimension numbers that says
  "the scatter index is the row, and the column is the same" (`rowsDims_lands_iff`), so the set of update
  entries landing on `(v, c)` is the image of the landing edges under `e ↦ (e, c)`.

  Each theorem is proved first for the record written out with these fields (`rowsDims`, `vecDims`) and
  then stated for ANY record of dimension numbers with these fields.
-/
import Idealize.ShloMosaic.Lib.ValueIdx
import Idealize.ShloMosaic.PureOps.Ideal

noncomputable section

open scoped BigOperators

namespace Cert.ScatterRows

open Idealize.ShloMosaic Idealize.ShloMosaic.ValueIdx

/-- the edges whose scatter index, read signed and NOT clamped, is the row v -/
def landing {T w : ℕ} (idx : IVec ⟨2, ![T, 1]⟩ w) (v : ℕ) : Finset (Fin T) :=
  Finset.univ.filter fun e => (idx (ix2 e (0 : Fin 1))).toInt = (v : ℤ)

/-! ## Where an update entry lands, for any dimension numbers -/

/-- An update entry `j` lands on the operand entry `i` exactly when, on every operand axis, its start plus its
    window coordinate is `i`'s coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro hs a
    split at hs
    · rename_i h
      have h' := congrArg (fun f => ((f a).val : ℕ)) (Option.some.inj hs)
      simp only at h'
      have := (h a).1
      omega
    · exact absurd hs (by simp)
  · intro hi
    have h : ∀ a, 0 ≤ d.start j idx a + (d.window j a : ℤ) ∧ d.start j idx a + (d.window j a : ℤ) < s.size a := by
      intro a
      have h1 := hi a
      have h2 := (i a).isLt
      constructor <;> omega
    rw [dif_pos h]
    congr 1
    funext a
    refine Fin.ext ?_
    have h1 := hi a
    show (d.start j idx a + (d.window j a : ℤ)).toNat = (i a).val
    omega

/-! ## Rows of a matrix -/

/-- The dimension numbers of a scatter of rows: operand `[N, C]`, scatter indices `[T, 1]`, updates `[T, C]`. -/
abbrev rowsDims (N C T : ℕ) (wf : ScatterDims.WF ⟨2, ![N, C]⟩ ⟨2, ![T, 1]⟩ ⟨2, ![T, C]⟩ [1] [0] [0] 1) :
    ScatterDims ⟨2, ![N, C]⟩ ⟨2, ![T, 1]⟩ ⟨2, ![T, C]⟩ where
  updateWindowDims := [1]
  insertedWindowDims := [0]
  scatterDimsToOperandDims := [0]
  indexVectorDim := 1
  wf := wf

section Rows
variable {N C T w : ℕ} (wf : ScatterDims.WF ⟨2, ![N, C]⟩ ⟨2, ![T, 1]⟩ ⟨2, ![T, C]⟩ [1] [0] [0] 1)

/-- The scatter-indices entry update entry `(e, c')` reads: `(e, 0)`. -/
theorem rowsDims_siIdx (e : Fin T) (c' : Fin C) :
    (rowsDims N C T wf).siIdx (ix2 e c') ⟨List.idxOf (0 : Fin 2) (rowsDims N C T wf).scatterDimsToOperandDims,
      List.idxOf_lt_length_iff.2 (List.mem_singleton.mpr rfl)⟩ = ix2 e (0 : Fin 1) := by
  funext b; refine Fin.ext ?_
  match b with
  | ⟨0, _⟩ => rfl
  | ⟨1, _⟩ => rfl

/-- On the row axis the start is the scatter index read signed … -/
theorem rowsDims_start0 (idx : IVec ⟨2, ![T, 1]⟩ w) (e : Fin T) (c' : Fin C) :
    (rowsDims N C T wf).start (ix2 e c') idx 0 = (idx (ix2 e (0 : Fin 1))).toInt := by
  unfold ScatterDims.start
  rw [dif_pos (show (0 : Fin 2) ∈ (rowsDims N C T wf).scatterDimsToOperandDims from List.mem_singleton.mpr rfl)]
  rw [rowsDims_siIdx wf e c']

/-- … and on the column axis it is `0`. -/
theorem rowsDims_start1 (idx : IVec ⟨2, ![T, 1]⟩ w) (e : Fin T) (c' : Fin C) :
    (rowsDims N C T wf).start (ix2 e c') idx 1 = 0 := by
  unfold ScatterDims.start
  rw [dif_neg (show (1 : Fin 2) ∉ (rowsDims N C T wf).scatterDimsToOperandDims from
    fun h => Nat.one_ne_zero (congrArg Fin.val (List.mem_singleton.mp h)))]

/-- The window coordinate is `0` on the row axis (an inserted axis) … -/
theorem rowsDims_window0 (e : Fin T) (c' : Fin C) : (rowsDims N C T wf).window (ix2 e c') 0 = 0 := rfl

/-- … and the update's column on the column axis. -/
theorem rowsDims_window1 (e : Fin T) (c' : Fin C) : (rowsDims N C T wf).window (ix2 e c') 1 = c'.val := rfl

/-- Update entry `(e, c')` lands on operand entry `(v, c)` exactly when the scatter index of `e`, read signed, is
    `v` and the columns agree. -/
theorem rowsDims_lands_iff (idx : IVec ⟨2, ![T, 1]⟩ w) (e : Fin T) (c' : Fin C) (v : Fin N) (c : Fin C) :
    (rowsDims N C T wf).resultIdx? (ix2 e c') idx = some (ix2 v c)
      ↔ (idx (ix2 e (0 : Fin 1))).toInt = (v.val : ℤ) ∧ c' = c := by
  rw [resultIdx?_eq_some_iff]
  constructor
  · intro h
    have h0 := h 0
    have h1 := h 1
    rw [rowsDims_start0, rowsDims_window0] at h0
    rw [rowsDims_start1, rowsDims_window1] at h1
    refine ⟨?_, Fin.ext ?_⟩
    · have : (((ix2 v c : (⟨2, ![N, C]⟩ : Shape).Idx) 0).val : ℤ) = (v.val : ℤ) := rfl
      omega
    · have : (((ix2 v c : (⟨2, ![N, C]⟩ : Shape).Idx) 1).val : ℤ) = (c.val : ℤ) := rfl
      omega
  · rintro ⟨h0, rfl⟩ a
    match a with
    | ⟨0, _⟩ =>
      show (rowsDims N C T wf).start (ix2 e c') idx 0 + ((rowsDims N C T wf).window (ix2 e c') 0 : ℤ) = (v.val : ℤ)
      rw [rowsDims_start0, rowsDims_window0, h0]; simp
    | ⟨1, _⟩ =>
      show (rowsDims N C T wf).start (ix2 e c') idx 1 + ((rowsDims N C T wf).window (ix2 e c') 1 : ℤ) = (c'.val : ℤ)
      rw [rowsDims_start1, rowsDims_window1]; simp

/-- The update entries landing on `(v, c)` are the entries `(e, c)` of the landing edges `e`. -/
theorem rowsDims_filter_eq (idx : IVec ⟨2, ![T, 1]⟩ w) (v : Fin N) (c : Fin C) :
    (Finset.univ.filter fun j => (rowsDims N C T wf).resultIdx? j idx = some (ix2 v c))
      = (landing idx v.val).map ⟨fun e => (ix2 e c : (⟨2, ![T, C]⟩ : Shape).Idx),
          fun e e' h => congrFun h 0⟩ := by
  ext j
  obtain ⟨e, c', rfl⟩ : ∃ e c', j = ix2 e c' := ⟨j 0, j 1, eq_ix2 j⟩
  simp only [Finset.mem_filter, Finset.mem_univ, true_and, Finset.mem_map, Function.Embedding.coeFn_mk, landing]
  rw [rowsDims_lands_iff]
  constructor
  · rintro ⟨h, rfl⟩
    exact ⟨e, h, rfl⟩
  · rintro ⟨e', h, he⟩
    have h0 : e' = e := congrFun he 0
    have h1 : c = c' := congrFun he 1
    subst h0 h1
    exact ⟨h, rfl⟩

/-- The scatter-add of rows at the written-out record, read at an entry. -/
theorem scatterAdd_rowsDims_apply {φ : FTy} (x : FVec Ideal ⟨2, ![N, C]⟩ φ) (idx : IVec ⟨2, ![T, 1]⟩ w)
    (upd : FVec Ideal ⟨2, ![T, C]⟩ φ) (v : Fin N) (c : Fin C) :
    Host.scatterAdd (rowsDims N C T wf) x idx upd (ix2 v c) = x (ix2 v c) + ∑ e ∈ landing idx v.val, upd (ix2 e c) := by
  show Ideal.hostScatterAdd (rowsDims N C T wf) x idx upd (ix2 v c) = _
  unfold Ideal.hostScatterAdd
  rw [rowsDims_filter_eq wf idx v c, Finset.sum_map]
  rfl

end Rows

/-- THE SCATTER-ADD OF ROWS READ AT `(v, c)`: the operand's entry plus the updates' column-`c` entries over the edges
    landing on row `v`; for any record with these dimension numbers. -/
theorem scatterAdd_rows_apply {N C T w : ℕ} {φ : FTy} (d : ScatterDims ⟨2, ![N, C]⟩ ⟨2, ![T, 1]⟩ ⟨2, ![T, C]⟩)
    (h1 : d.updateWindowDims = [1]) (h2 : d.insertedWindowDims = [0]) (h3 : d.scatterDimsToOperandDims = [0])
    (h4 : d.indexVectorDim = 1)
    (x : FVec Ideal ⟨2, ![N, C]⟩ φ) (idx : IVec ⟨2, ![T, 1]⟩ w) (upd : FVec Ideal ⟨2, ![T, C]⟩ φ)
    (v : Fin N) (c : Fin C) :
    Host.scatterAdd d x idx upd (ix2 v c) = x (ix2 v c) + ∑ e ∈ landing idx v.val, upd (ix2 e c) := by
  obtain ⟨uw, iw, sd, iv, wf⟩ := d
  simp only at h1 h2 h3 h4
  subst h1 h2 h3 h4
  exact scatterAdd_rowsDims_apply wf x idx upd v c

/-! ## Entries of a vector -/

/-- The dimension numbers of the same scatter of a vector: operand `[N]`, scatter indices `[T, 1]`, updates `[T]`. -/
abbrev vecDims (N T : ℕ) (wf : ScatterDims.WF ⟨1, ![N]⟩ ⟨2, ![T, 1]⟩ ⟨1, ![T]⟩ [] [0] [0] 1) :
    ScatterDims ⟨1, ![N]⟩ ⟨2, ![T, 1]⟩ ⟨1, ![T]⟩ where
  updateWindowDims := []
  insertedWindowDims := [0]
  scatterDimsToOperandDims := [0]
  indexVectorDim := 1
  wf := wf

section Vec
variable {N T w : ℕ} (wf : ScatterDims.WF ⟨1, ![N]⟩ ⟨2, ![T, 1]⟩ ⟨1, ![T]⟩ [] [0] [0] 1)

/-- The scatter-indices entry update entry `e` reads: `(e, 0)`. -/
theorem vecDims_siIdx (e : Fin T) :
    (vecDims N T wf).siIdx (ix1 e) ⟨List.idxOf (0 : Fin 1) (vecDims N T wf).scatterDimsToOperandDims,
      List.idxOf_lt_length_iff.2 (List.mem_singleton.mpr rfl)⟩ = ix2 e (0 : Fin 1) := by
  funext b; refine Fin.ext ?_
  match b with
  | ⟨0, _⟩ => rfl
  | ⟨1, _⟩ => rfl

/-- On the one operand axis the start is the scatter index read signed … -/
theorem vecDims_start0 (idx : IVec ⟨2, ![T, 1]⟩ w) (e : Fin T) :
    (vecDims N T wf).start (ix1 e) idx 0 = (idx (ix2 e (0 : Fin 1))).toInt := by
  unfold ScatterDims.start
  rw [dif_pos (show (0 : Fin 1) ∈ (vecDims N T wf).scatterDimsToOperandDims from List.mem_singleton.mpr rfl)]
  rw [vecDims_siIdx wf e]

/-- … and the window coordinate is `0` (an inserted axis). -/
theorem vecDims_window0 (e : Fin T) : (vecDims N T wf).window (ix1 e) 0 = 0 := rfl

/-- Update entry `e` lands on operand entry `v` exactly when its scatter index, read signed, is `v`. -/
theorem vecDims_lands_iff (idx : IVec ⟨2, ![T, 1]⟩ w) (e : Fin T) (v : Fin N) :
    (vecDims N T wf).resultIdx? (ix1 e) idx = some (ix1 v) ↔ (idx (ix2 e (0 : Fin 1))).toInt = (v.val : ℤ) := by
  rw [resultIdx?_eq_some_iff]
  constructor
  · intro h
    have h0 := h 0
    rw [vecDims_start0, vecDims_window0] at h0
    have : (((ix1 v : (⟨1, ![N]⟩ : Shape).Idx) 0).val : ℤ) = (v.val : ℤ) := rfl
    omega
  · intro h0 a
    obtain rfl : a = 0 := Subsingleton.elim _ _
    show (vecDims N T wf).start (ix1 e) idx 0 + ((vecDims N T wf).window (ix1 e) 0 : ℤ) = (v.val : ℤ)
    rw [vecDims_start0, vecDims_window0, h0]; simp

/-- The update entries landing on `v` are the landing edges. -/
theorem vecDims_filter_eq (idx : IVec ⟨2, ![T, 1]⟩ w) (v : Fin N) :
    (Finset.univ.filter fun j => (vecDims N T wf).resultIdx? j idx = some (ix1 v))
      = (landing idx v.val).map ⟨fun e => (ix1 e : (⟨1, ![T]⟩ : Shape).Idx), fun e e' h => congrFun h 0⟩ := by
  ext j
  obtain ⟨e, rfl⟩ : ∃ e, j = ix1 e := ⟨j 0, eq_ix1 j⟩
  simp only [Finset.mem_filter, Finset.mem_univ, true_and, Finset.mem_map, Function.Embedding.coeFn_mk, landing]
  rw [vecDims_lands_iff]
  constructor
  · intro h
    exact ⟨e, h, rfl⟩
  · rintro ⟨e', h, he⟩
    have h0 : e' = e := congrFun he 0
    subst h0
    exact h

/-- The scatter-add of a vector at the written-out record, read at an entry. -/
theorem scatterAdd_vecDims_apply {φ : FTy} (x : FVec Ideal ⟨1, ![N]⟩ φ) (idx : IVec ⟨2, ![T, 1]⟩ w)
    (upd : FVec Ideal ⟨1, ![T]⟩ φ) (v : Fin N) :
    Host.scatterAdd (vecDims N T wf) x idx upd (ix1 v) = x (ix1 v) + ∑ e ∈ landing idx v.val, upd (ix1 e) := by
  show Ideal.hostScatterAdd (vecDims N T wf) x idx upd (ix1 v) = _
  unfold Ideal.hostScatterAdd
  rw [vecDims_filter_eq wf idx v, Finset.sum_map]
  rfl

end Vec

/-- THE SCATTER-ADD OF A VECTOR READ AT `v`: the operand's entry plus the updates over the edges landing on `v`; for
    any record with these dimension numbers. -/
theorem scatterAdd_vec_apply {N T w : ℕ} {φ : FTy} (d : ScatterDims ⟨1, ![N]⟩ ⟨2, ![T, 1]⟩ ⟨1, ![T]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![T, 1]⟩ w) (upd : FVec Ideal ⟨1, ![T]⟩ φ) (v : Fin N) :
    Host.scatterAdd d x idx upd (ix1 v) = x (ix1 v) + ∑ e ∈ landing idx v.val, upd (ix1 e) := by
  obtain ⟨uw, iw, sd, iv, wf⟩ := d
  simp only at h1 h2 h3 h4
  subst h1 h2 h3 h4
  exact scatterAdd_vecDims_apply wf x idx upd v

end Cert.ScatterRows

end
-- ==== Proof.ConvReal.lean ====
/-
  REAL ENTRIES THROUGH A SPARSE CONVOLUTION.

  Over the extended reals an entry is a real number or one of the two infinities, and the algebra of a batch
  normalisation (differences, products, quotients by a positive number) is only valid for real numbers.  This file
  shows that the convolution stage

      out = scatter-add( zeros , I₅ , reshape( dot_general( gather(x, I₄) , W ) ) )

  has real entries as soon as `x` and `W` have, whatever the integer index arrays `I₄`, `I₅` hold:

    • a gather reads every result entry from SOME entry of its operand (the start indices are clamped so that the
      slice fits, so the entry read always exists): real entries in, real entries out;
    • a dot_general entry is a finite sum of products of an entry of the left operand by an entry of the right one;
    • a scatter-add entry is the operand's entry plus a finite sum of update entries (the updates that land on it; an
      update that lands outside the operand contributes nothing);
    • the splat of the float pattern of +0.0 is the real number 0 everywhere.

  Finite sums and products of real numbers are real.  Finally the precondition "every float input is finite", written
  all(|a| < +∞) for each of the four float inputs and joined by "and", says exactly that every entry of each of them
  is a real number.
-/
import proofs.«172280_j16088947491314_1_alg».proof.Proof.LibRealEntries
import proofs.«172280_j16088947491314_1_alg».proof.Proof.LibFiniteInputs
import proofs.«172280_j16088947491314_1_alg».proof.Proof.LibScatterRows
import proofs.«172280_j16088947491314_1_alg».proof.Proof.Gen.Pre_finite_inputs

noncomputable section

namespace Cert.ConvReal

open Idealize.ShloMosaic Idealize.ShloMosaic.ValueIdx Cert.RealEntries

/-! ## Gather -/

/-- A gather reads each result entry from an entry of the operand (at the operand index the dimension numbers and the
    clamped start indices give), so it carries "every entry is real" from the operand to the result, whatever the
    start indices are. -/
theorem allReal_gather {s si t : Shape} {w : ℕ} {φ : FTy} (d : GatherDims s si t) (x : FVec Ideal s φ) (idx : IVec si w)
    (hx : AllReal x) : AllReal (φ := φ) (Host.gather d x idx) :=
  fun j => hx (d.operandIdx j idx)

/-! ## dot_general -/

/-- A dot_general entry is the sum over the contraction index of products of an entry of each operand: real when both
    operands have real entries.  (Any precision attribute, any two operand formats.) -/
theorem allReal_dotGeneral_prec {sl sr so : Shape} {φ₁ φ₂ : FTy} (d : DotDims sl sr so) (prec : Option ContractPrecision)
    (l : FVec Ideal sl φ₁) (r : FVec Ideal sr φ₂) (hl : AllReal l) (hr : AllReal r) :
    AllReal (Host.dotGeneral d prec l r) := by
  intro j
  show IsR (FloatOps.dotGeneral d prec .single l r j)
  rw [Ideal.dotGeneral_apply]
  exact IsR.sum _ _ fun k _ => (hl _).mul (hr _)

/-- The same at the default precision. -/
theorem allReal_dotGeneral {sl sr so : Shape} {φ : FTy} (d : DotDims sl sr so) (l : FVec Ideal sl φ) (r : FVec Ideal sr φ)
    (hl : AllReal l) (hr : AllReal r) : AllReal (Host.dotGeneral d none l r) :=
  allReal_dotGeneral_prec d none l r hl hr

/-! ## Scatter-add -/

/-- A scatter-add entry is the operand's entry plus the sum of the update entries that land on it: real when the
    operand and the updates have real entries, whatever the scatter indices and the dimension numbers are. -/
theorem allReal_scatterAdd {s si u : Shape} {w : ℕ} {φ : FTy} (d : ScatterDims s si u) (x : FVec Ideal s φ)
    (idx : IVec si w) (upd : FVec Ideal u φ) (hx : AllReal x) (hu : AllReal upd) :
    AllReal (Host.scatterAdd d x idx upd) := by
  intro i
  show IsR (Ideal.hostScatterAdd d x idx upd i)
  unfold Ideal.hostScatterAdd
  exact (hx i).add (IsR.sum _ _ fun j _ => hu j)

/-- The scatter-add of rows of a matrix: entry (v, c) is the operand's entry plus the column-c entries of the update
    rows whose scatter index is v. -/
theorem allReal_scatterAdd_rows {N C T w : ℕ} {φ : FTy} (d : ScatterDims ⟨2, ![N, C]⟩ ⟨2, ![T, 1]⟩ ⟨2, ![T, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![T, 1]⟩ w)
    (upd : FVec Ideal ⟨2, ![T, C]⟩ φ) (hx : AllReal x) (hu : AllReal upd) : AllReal (Host.scatterAdd d x idx upd) := by
  intro j
  obtain ⟨v, c, rfl⟩ : ∃ (v : Fin N) (c : Fin C), j = ix2 v c := ⟨j 0, j 1, eq_ix2 j⟩
  rw [Cert.ScatterRows.scatterAdd_rows_apply d h1 h2 h3 h4]
  exact (hx _).add (IsR.sum _ _ fun e _ => hu _)

/-! ## The zero splat -/

/-- The splat of the float pattern of +0.0 is the real number 0 at every entry. -/
theorem allReal_zeros (s : Shape) (hb : (⟨0, ![]⟩ : Shape).BroadcastsInDim s (![] : Fin 0 → Fin s.rank)) :
    AllReal (φ := .f32) (broadcastInDim s ![] hb (constant (F := Ideal) ⟨0, ![]⟩ .f32 0x00000000#32)) := by
  intro j
  show IsR (Ideal.ofBits .f32 0x00000000#32)
  rw [Ideal.ofBits_zero_f32]
  exact IsR.zero

/-! ## The precondition decoded -/

/-- The rank-0 shape has one index. -/
instance subsingleton_scalarIdx : Subsingleton Cert.Pre_finite_inputs.S_.Idx := ⟨fun a b => funext fun d => d.elim0⟩

/-- The precondition is the conjunction, over the four float inputs a, of all(|a| < +∞): it being true says that every
    entry of each of the four is a real number.  (The two integer inputs are not constrained.) -/
theorem pre_real [Cert.Pre_finite_inputs.Facts] (x : FVec Ideal Cert.Pre_finite_inputs.S200000x32 .f32)
    (W : FVec Ideal Cert.Pre_finite_inputs.S27x32x32 .f32) (g b : FVec Ideal Cert.Pre_finite_inputs.S32 .f32)
    (i4 i5 : IVec Cert.Pre_finite_inputs.S27x100000 32)
    (h : Cert.Pre_finite_inputs.fn (F := Ideal) x W g b i4 i5 = fun _ => 1#1) :
    AllReal x ∧ AllReal W ∧ AllReal g ∧ AllReal b := by
  have h0 := congrFun h (fun d => d.elim0)
  dsimp only [Cert.Pre_finite_inputs.fn, Cert.Pre_finite_inputs.fn_part1] at h0
  simp only [Idealize.ShloMosaic.andi, IntOp.andi_eq_one] at h0
  obtain ⟨⟨⟨hx, hW⟩, hg⟩, hb⟩ := h0
  exact ⟨allReal_of_all_finite x _ _ _ _ _ hx, allReal_of_all_finite W _ _ _ _ _ hW,
    allReal_of_all_finite g _ _ _ _ _ hg, allReal_of_all_finite b _ _ _ _ _ hb⟩

end Cert.ConvReal

end
-- ==== Proof.ConvBridge.lean ====
/-
  THE CONVOLUTION STAGE IS THE SAME FUNCTION OF THE ARGUMENTS IN THE TWO PROGRAMS.

  The reference computes the sparse convolution on the host: the rows of x gathered at the wrapped input indices,
  multiplied per kernel offset by that offset's weight matrix in ONE batched product, the 27 · 100000 product rows laid
  out as one list and scatter-added into zeros at the wrapped output indices.  The kernel does the same gather, the same
  reshape and the same scatter-add on the host, and computes the product in its first region, whose array is

      prod(G, W)[b, m, d] = Σ_{k < 32} G[b, m, k] · W[b, k, d].

  Over the extended reals the host's batched product, read at the entry (b, m, d), is that same sum: the two product
  arrays are equal, entry by entry.  Everything around the product is the same operations with the same dimension
  numbers, so the reference's convolution term is the kernel's "scatter-add of the product array" term.

  And every entry of that array is a real number when every entry of x and of W is: a gathered entry is an entry of x,
  a product entry is a finite sum of products, a reshape re-indexes, and a scatter-add entry is 0 plus a finite sum of
  update entries.
-/
import proofs.«172280_j16088947491314_1_alg».proof.Proof.RefRun
import proofs.«172280_j16088947491314_1_alg».proof.Proof.KHost
import proofs.«172280_j16088947491314_1_alg».proof.Proof.Reg0
import proofs.«172280_j16088947491314_1_alg».proof.Proof.LibDotBatched
import proofs.«172280_j16088947491314_1_alg».proof.Proof.ConvReal

noncomputable section

open scoped BigOperators

namespace Cert.ConvBridge

open Idealize.ShloMosaic Idealize.ShloMosaic.ValueIdx Cert.RealEntries

/-- The host's batched product of the gathered rows G by the weight matrices W is the product array, entry by entry:
    at (b, m, d) both are Σ_{k < 32} G[b, m, k] · W[b, k, d]. -/
theorem dot_eq_prod (G : FVec Ideal Cert.KernelIdeal.S27x100000x32 .f32) (W : FVec Ideal Cert.KernelIdeal.S27x32x32 .f32) :
    Host.dotGeneral Cert.ReferenceIdeal.dot_S27x100000x32_S27x32x32_S27x100000x32_2_1_1_2_0_0 none G W
      = Cert.KernelIdeal.Reg0.prod G W := by
  funext i
  calc Host.dotGeneral Cert.ReferenceIdeal.dot_S27x100000x32_S27x32x32_S27x100000x32_2_1_1_2_0_0 none G W i
      = Host.dotGeneral Cert.ReferenceIdeal.dot_S27x100000x32_S27x32x32_S27x100000x32_2_1_1_2_0_0 none G W
          (ix3 (i 0) (i 1) (i 2)) := congrArg _ (eq_ix3 i)
    _ = ∑ k : Fin 32, G (ix3 (i 0) (i 1) k) * W (ix3 (i 0) k (i 2)) :=
        Cert.DotBatched.dotGeneral_batched_apply
          Cert.ReferenceIdeal.dot_S27x100000x32_S27x32x32_S27x100000x32_2_1_1_2_0_0 rfl rfl rfl rfl rfl rfl G W
          (i 0) (i 1) (i 2)
    _ = Cert.KernelIdeal.Reg0.prod G W i := rfl

/-- the reference's convolution term is the kernel's: the scatter-add of the product array of the gathered rows -/
theorem conv_eq (x : FVec Ideal Cert.KernelIdeal.S200000x32 .f32) (W : FVec Ideal Cert.KernelIdeal.S27x32x32 .f32)
    (i4 i5 : IVec Cert.KernelIdeal.S27x100000 32) :
    Cert.ReferenceIdeal.RefRun.conv (F := Ideal) x W i4 i5
      = Cert.KernelIdeal.KHost.scattered (Cert.KernelIdeal.Reg0.prod
          (Host.gather Cert.KernelIdeal.gather_S200000x32_S27x100000x1_S27x100000x32_2_0_n_n_0_2_132 x
            (Cert.KernelIdeal.KHost.idx4 i4)) W) i5 := by
  unfold Cert.ReferenceIdeal.RefRun.conv Cert.KernelIdeal.KHost.scattered
  rw [dot_eq_prod]
  rfl

/-- every entry of the convolution is a real number when the inputs' entries are -/
theorem conv_real (x : FVec Ideal Cert.KernelIdeal.S200000x32 .f32) (W : FVec Ideal Cert.KernelIdeal.S27x32x32 .f32)
    (i4 i5 : IVec Cert.KernelIdeal.S27x100000 32) (hx : AllReal x) (hW : AllReal W) :
    AllReal (Cert.ReferenceIdeal.RefRun.conv (F := Ideal) x W i4 i5) := by
  unfold Cert.ReferenceIdeal.RefRun.conv
  exact Cert.ConvReal.allReal_scatterAdd _ _ _ _ (Cert.ConvReal.allReal_zeros _ _)
    (AllReal.of_shapeCast
      (Cert.ConvReal.allReal_dotGeneral _ _ _ (Cert.ConvReal.allReal_gather _ _ _ hx) hW) _)

end Cert.ConvBridge

end
-- ==== Proof.Bridge.lean ====
/-
  The kernel and the reference compute one function.

  Both programs first form the scattered array o: for each kernel offset and each pair, a row of x times that
  offset's weight matrix, added into a row of an array of zeros (the reference with one batched product on the
  host, the kernel with a product per block in its first region: one array, index by index).  Both then
  normalise every column of o over the 200000 rows with gamma and beta and clamp at zero.  The kernel scales
  and shifts, o * (g * r) + (b - mean * (g * r)) with the variance taken as the mean of the squares less the square of
  the mean; the reference centres first, g * (o - mean) * r + b with the variance the mean of the squared deviations.
  Under the precondition every entry of x, W, gamma and beta is a real number, so every entry of o is, and for
  real numbers the two arrangements agree (they do not at the infinities, where distributivity fails).
-/
import proofs.«172280_j16088947491314_1_alg».proof.Defs
import proofs.«172280_j16088947491314_1_alg».proof.Proof.KRun
import proofs.«172280_j16088947491314_1_alg».proof.Proof.KValue
import proofs.«172280_j16088947491314_1_alg».proof.Proof.Reg0
import proofs.«172280_j16088947491314_1_alg».proof.Proof.Reg1
import proofs.«172280_j16088947491314_1_alg».proof.Proof.RefRun
import proofs.«172280_j16088947491314_1_alg».proof.Proof.RefRead
import proofs.«172280_j16088947491314_1_alg».proof.Proof.ConvBridge
import proofs.«172280_j16088947491314_1_alg».proof.Proof.ConvReal
import proofs.«172280_j16088947491314_1_alg».proof.Proof.BnAlgebra
import proofs.«172280_j16088947491314_1_alg».proof.Proof.Gen.Pre_finite_inputs

set_option maxRecDepth 16384

noncomputable section

namespace Cert.Bridge

open Cert.KernelIdeal
open Idealize.ShloMosaic Idealize.ShloMosaic.TcCoe Idealize.ShloMosaic.ValueIdx Idealize.SL.Sem
open Cert.RealEntries

variable (m : (ℓ : Loc nD τ sig) → Buf (Elt Ideal) ℓ) (ρ : Dev nD → PrngReg)

/-- The scattered array the kernel's second and third regions read is the reference's convolution term of the
    arguments. -/
theorem scattered_eq (c : Dev nD) :
    Gen.V3 m ρ c main_v17
      = Cert.ReferenceIdeal.RefRun.conv (F := Ideal) (m ((c : Thread nD τ).loc main_arg0)) (m ((c : Thread nD τ).loc main_arg1))
          (m ((c : Thread nD τ).loc main_arg4)) (m ((c : Thread nD τ).loc main_arg5)) := by
  rw [KHost.V3_v17 m ρ c, Reg0.final_msgs (Gen.V1 m ρ) c, KHost.V1_v6 m ρ c, KHost.V1_arg1 m ρ c]
  exact (Cert.ConvBridge.conv_eq _ _ _ _).symm

/-- THE KERNEL'S RESULT IS THE REFERENCE'S TERM of the arguments, when the float arguments are finite. -/
theorem value_eq (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) = fun _ => 1#1) :
    (Gen.W6 m ρ c (Proc.devRef .tc main_v33) : FVec Ideal S200000x32 .f32)
      = Cert.ReferenceIdeal.RefRun.bn (F := Ideal)
          (Cert.ReferenceIdeal.RefRun.conv (F := Ideal) (m ((c : Thread nD τ).loc main_arg0)) (m ((c : Thread nD τ).loc main_arg1))
            (m ((c : Thread nD τ).loc main_arg4)) (m ((c : Thread nD τ).loc main_arg5)))
          (m ((c : Thread nD τ).loc main_arg2)) (m ((c : Thread nD τ).loc main_arg3)) := by
  obtain ⟨hx, hW, hg, hb⟩ := Cert.ConvReal.pre_real _ _ _ _ _ _ hpre
  have ho := scattered_eq m ρ c
  funext i
  obtain ⟨n, q, rfl⟩ : ∃ (n : Fin 200000) (q : Fin 32), i = ix2 n q := ⟨i 0, i 1, eq_ix2 i⟩
  have hSq : ((Gen.dat1 (Gen.V3 m ρ) c).arrAt 1 cfg1.N : FVec Ideal S1x32 .f32) (ix2 (0 : Fin 1) q)
      = ∑ k : Fin 200000, (Cert.ReferenceIdeal.RefRun.conv (F := Ideal) (m ((c : Thread nD τ).loc main_arg0)) (m ((c : Thread nD τ).loc main_arg1))
          (m ((c : Thread nD τ).loc main_arg4)) (m ((c : Thread nD τ).loc main_arg5))) (ix2 k q) := by
    rw [Reg1.final_sum (Gen.V3 m ρ) c]
    show ∑ k : Fin 200000, Reg1.arr (Gen.V3 m ρ) c k q = _
    exact Finset.sum_congr rfl fun k _ => congrFun ho (ix2 k q)
  have hQq : ((Gen.dat1 (Gen.V3 m ρ) c).arrAt 2 cfg1.N : FVec Ideal S1x32 .f32) (ix2 (0 : Fin 1) q)
      = ∑ k : Fin 200000, (Cert.ReferenceIdeal.RefRun.conv (F := Ideal) (m ((c : Thread nD τ).loc main_arg0)) (m ((c : Thread nD τ).loc main_arg1))
          (m ((c : Thread nD τ).loc main_arg4)) (m ((c : Thread nD τ).loc main_arg5))) (ix2 k q)
          * (Cert.ReferenceIdeal.RefRun.conv (F := Ideal) (m ((c : Thread nD τ).loc main_arg0)) (m ((c : Thread nD τ).loc main_arg1))
          (m ((c : Thread nD τ).loc main_arg4)) (m ((c : Thread nD τ).loc main_arg5))) (ix2 k q) := by
    rw [Reg1.final_sumsq (Gen.V3 m ρ) c]
    show ∑ k : Fin 200000, Reg1.arr (Gen.V3 m ρ) c k q * Reg1.arr (Gen.V3 m ρ) c k q = _
    exact Finset.sum_congr rfl fun k _ => congrArg₂ (· * ·) (congrFun ho (ix2 k q)) (congrFun ho (ix2 k q))
  rw [KValue.value_apply m ρ c n q _ ho _ _ rfl rfl _ _ rfl rfl hSq hQq,
    Cert.ReferenceIdeal.RefRead.bn_apply Cert.BnAlgebra.ofBits_200000]
  exact Cert.BnAlgebra.kernelSide_eq_referenceSide _
    (fun k => Cert.ConvBridge.conv_real _ _ _ _ hx hW (ix2 k q)) _ _ (hg (ix1 q)) (hb (ix1 q)) _
    (by rw [Cert.BnAlgebra.ofBits_200000, Fintype.card_fin]; norm_num) (by rw [Fintype.card_fin]; norm_num) _
    Cert.BnAlgebra.ofBits_eps_pos _ n

/-- At the ideal instance the kernel's result array and the reference's, run from memories that agree on the
    arguments, are equal; both runs terminate and leave the arguments as launched. -/
theorem algebraic : Cert.algebraic_KernelIdeal_ReferenceIdeal := by
  intro m ρ m' ρ' hpre hagree
  refine ⟨fun c => Gen.W6 m ρ c (Proc.devRef .tc main_v33), KRun.run m ρ, ?_⟩
  refine (θ_run Cert.ReferenceIdeal.defs _ _).mono (fun r h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2]
  exact (value_eq m ρ c (hpre c)).symm

end Cert.Bridge

end
-- ==== Proof.lean ====
/-
  A sparse convolution followed by a batch normalisation and a clamp at zero: the kernel against its reference.

  The kernel gathers rows of x on the host, multiplies them offset by offset with the weight matrices on the
  matrix unit (its first region), scatter-adds the product rows into an array o on the host, sums the columns of
  o and of its squares block by block (second region), forms on the host the mean, the variance as the mean of
  the squares less the square of the mean, the row gamma * rsqrt (variance + eps) and the row beta - mean * that, and
  applies o * scale + shift clamped at zero (third region).  The reference does the same on the host in the
  textbook arrangement: one batched product, the variance as the mean of the squared deviations,
  gamma * (o - mean) * rsqrt (variance + eps) + beta, clamped at zero.

  The frames of the word-level and of the idealized kernel are their generated frame certificates; the
  reference's frame is its run with the result dropped.  The ideal pass rewrote no operation, so the
  idealization claim is `True`.  At the ideal instance the two programs compute one function of the arguments
  when the float arguments are finite (Proof/Bridge.lean): the products agree index by index as sums, every entry
  of o is then a real number, and for real numbers the two arrangements of the normalisation agree.
-/
import proofs.«172280_j16088947491314_1_alg».proof.Defs
import proofs.«172280_j16088947491314_1_alg».proof.Proof.Gen.Kernel
import proofs.«172280_j16088947491314_1_alg».proof.Proof.Gen.Kernel.Skeleton
import proofs.«172280_j16088947491314_1_alg».proof.Proof.Gen.Kernel.Launch
import proofs.«172280_j16088947491314_1_alg».proof.Proof.Gen.Kernel.Points
import proofs.«172280_j16088947491314_1_alg».proof.Proof.Gen.Kernel.Frame
import proofs.«172280_j16088947491314_1_alg».proof.Proof.Gen.KernelIdeal
import proofs.«172280_j16088947491314_1_alg».proof.Proof.Gen.KernelIdeal.Skeleton
import proofs.«172280_j16088947491314_1_alg».proof.Proof.Gen.KernelIdeal.Launch
import proofs.«172280_j16088947491314_1_alg».proof.Proof.Gen.KernelIdeal.Points
import proofs.«172280_j16088947491314_1_alg».proof.Proof.Gen.KernelIdeal.Frame
import proofs.«172280_j16088947491314_1_alg».proof.Proof.Gen.ReferenceIdeal
import proofs.«172280_j16088947491314_1_alg».proof.Proof.Gen.Pre_finite_inputs
import proofs.«172280_j16088947491314_1_alg».proof.Proof.RefRun
import proofs.«172280_j16088947491314_1_alg».proof.Proof.Bridge
import Idealize.ShloMosaic.Adequacy
import Idealize.ShloMosaic.Init

noncomputable section

namespace Cert.Proof

open Idealize.ShloMosaic Idealize.SL.Sem

/-- The word-level kernel runs, faults nowhere and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote nothing: there is nothing to restate. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, Cert.Bridge.algebraic⟩

end Cert.Proof

end
